-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128x16 : Shape := ⟨4, ![512, 128, 128, 16]⟩
abbrev S130x128 : Shape := ⟨2, ![130, 128]⟩
abbrev S_ : Shape := ⟨0, ![]⟩

class Facts : Prop where
  bcast_S_S512x128x128x16 : S_.BroadcastsInDim S512x128x128x16 (![] : Fin 0 → Fin S512x128x128x16.rank)
  reducesTo_S512x128x128x16_S_d0_1_2_3 : S512x128x128x16.ReducesTo [0, 1, 2, 3] S_
  h_S_ : 0 < S_.numel
  bcast_S_S130x128 : S_.BroadcastsInDim S130x128 (![] : Fin 0 → Fin S130x128.rank)
  reducesTo_S130x128_S_d0_1 : S130x128.ReducesTo [0, 1] S_

variable [Facts]

def fn {F : FTy → Type} [FloatOps F] (main_arg0 : FVec F S512x128x128x16 .f32) (main_arg1 : FVec F S130x128 .f32) : IVec S_ 1 :=
  let main_v0 : FVec F S512x128x128x16 .f32 := Host.absf main_arg0
  let main_cst : FVec F S_ .f32 := constant S_ .f32 0x7F800000#32
  let main_v1 : FVec F S512x128x128x16 .f32 := broadcastInDim S512x128x128x16 ![] bcast_S_S512x128x128x16 main_cst
  let main_v2 : IVec S512x128x128x16 1 := cmpf .olt main_v0 main_v1
  let main_c : IVec S_ 1 := constantI S_ 1 1#1
  let main_v3 : IVec S_ 1 := (fun x v => Host.reduce IntOp.andi x v reducesTo_S512x128x128x16_S_d0_1_2_3 h_S_) main_v2 main_c
  let main_v4 : FVec F S130x128 .f32 := Host.absf main_arg1
  let main_cst_0 : FVec F S_ .f32 := constant S_ .f32 0x7F800000#32
  let main_v5 : FVec F S130x128 .f32 := broadcastInDim S130x128 ![] bcast_S_S130x128 main_cst_0
  let main_v6 : IVec S130x128 1 := cmpf .olt main_v4 main_v5
  let main_c_1 : IVec S_ 1 := constantI S_ 1 1#1
  let main_v7 : IVec S_ 1 := (fun x v => Host.reduce IntOp.andi x v reducesTo_S130x128_S_d0_1 h_S_) main_v6 main_c_1
  let main_v8 : IVec S_ 1 := andi main_v3 main_v7
  main_v8
-- ==== Kernel.lean ====
abbrev S512x128x128x16 : Shape := ⟨4, ![512, 128, 128, 16]⟩
abbrev S130x128 : Shape := ⟨2, ![130, 128]⟩
abbrev S128x128 : Shape := ⟨2, ![128, 128]⟩
abbrev S2x128x128x16 : Shape := ⟨4, ![2, 128, 128, 16]⟩
abbrev S2x128x128 : Shape := ⟨3, ![2, 128, 128]⟩
abbrev S2x128x128x1 : Shape := ⟨4, ![2, 128, 128, 1]⟩
abbrev S128x128x1 : Shape := ⟨3, ![128, 128, 1]⟩
abbrev S130x130 : Shape := ⟨2, ![130, 130]⟩
abbrev S128x130 : Shape := ⟨2, ![128, 130]⟩
abbrev S1x130x130x1 : Shape := ⟨4, ![1, 130, 130, 1]⟩

abbrev nBuf : Space → Nat
  | .hbm => 5
  | .vmem => 7
  | .smem => 0
  | _ => 0

abbrev bufTy : (tb : Table) → Fin (tcTables nBuf tb) → BufTy
  | .hbm, ⟨0, _⟩ => ⟨S512x128x128x16, .f32⟩
  | .hbm, ⟨1, _⟩ => ⟨S130x128, .f32⟩
  | .hbm, ⟨2, _⟩ => ⟨S128x128, .f32⟩
  | .hbm, ⟨3, _⟩ => ⟨S130x130, .f32⟩
  | .hbm, ⟨4, _⟩ => ⟨S1x130x130x1, .f32⟩
  | .local _ .vmem, ⟨0, _⟩ => ⟨S2x128x128x16, .f32⟩
  | .local _ .vmem, ⟨1, _⟩ => ⟨S2x128x128x16, .f32⟩
  | .local _ .vmem, ⟨2, _⟩ => ⟨S128x128, .f32⟩
  | .local _ .vmem, ⟨3, _⟩ => ⟨S128x128, .f32⟩
  | .local _ .vmem, ⟨4, _⟩ => ⟨S130x128, .f32⟩
  | .local _ .vmem, ⟨5, _⟩ => ⟨S128x128, .f32⟩
  | .local _ .vmem, ⟨6, _⟩ => ⟨S130x130, .f32⟩
  | _, _ => ⟨S512x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S130x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S130x130 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128x128x16_S2x128x128x16_0_0_0_0 : ∀ a, (![0, 0, 0, 0] : Fin 4 → Nat) a + S2x128x128x16.size a ≤ S2x128x128x16.size a
  h_S2x128x128x16 : 0 < S2x128x128x16.numel
  reduces_S2x128x128x16_S2x128x128 : S2x128x128x16.Reduces [3] S2x128x128
  shapeCasts_S2x128x128_S2x128x128x1 : S2x128x128.ShapeCasts S2x128x128x1
  reduces_S2x128x128x1_S128x128x1 : S2x128x128x1.Reduces [0] S128x128x1
  shapeCasts_S128x128x1_S128x128 : S128x128x1.ShapeCasts S128x128
  inb_S130x128_S130x128_0_0 : ∀ a, (![0, 0] : Fin 2 → Nat) a + S130x128.size a ≤ S130x128.size a
  h_S130x128 : 0 < S130x128.numel
  transposes_S130x128_p1_0_S128x130 : S130x128.Transposes [1, 0] S128x130
  inb_S130x130_S130x130_0_0 : ∀ a, (![0, 0] : Fin 2 → Nat) a + S130x130.size a ≤ S130x130.size a
  h_S130x130 : 0 < S130x130.numel
  bcast_S130x130_S1x130x130x1_1_2 : S130x130.BroadcastsInDim S1x130x130x1 (![1, 2] : Fin 2 → Fin S1x130x130x1.rank)
  dot_S130x128_S128x128_S130x128_1_0_0_1_n_n_wf : DotDims.WF S130x128 S128x128 S130x128 [1] [0] [0] [1] [] []
  dot_S130x128_S128x130_S130x130_1_0_0_1_n_n_wf : DotDims.WF S130x128 S128x130 S130x130 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x128x16.size a ≤ S512x128x128x16.size a
  hwx0_0 : ∀ i : grid0.Coords, EltTy.bits .f32 = 32 ∨ (Rect.block (s := S512x128x128x16) S2x128x128x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S130x128.size a ≤ S130x128.size a
  hwx1_0 : ∀ i : grid1.Coords, EltTy.bits .f32 = 32 ∨ (Rect.block (s := S130x128) S130x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S130x130.size a ≤ S130x130.size a
  hwx1_2 : ∀ i : grid1.Coords, EltTy.bits .f32 = 32 ∨ (Rect.block (s := S130x130) S130x130.size (cc1_transform_2 i) (hinb1_2 i)).WholeWords (EltTy.packing .f32)

variable [Facts₀]

def dot_S130x128_S128x128_S130x128_1_0_0_1_n_n : DotDims S130x128 S128x128 S130x128 where
  lhsContracting := [1]
  rhsContracting := [0]
  lhsNonContracting := [0]
  rhsNonContracting := [1]
  lhsBatch := []
  rhsBatch := []
  wf := dot_S130x128_S128x128_S130x128_1_0_0_1_n_n_wf
def dot_S130x128_S128x130_S130x130_1_0_0_1_n_n : DotDims S130x128 S128x130 S130x130 where
  lhsContracting := [1]
  rhsContracting := [0]
  lhsNonContracting := [0]
  rhsNonContracting := [1]
  lhsBatch := []
  rhsBatch := []
  wf := dot_S130x128_S128x130_S130x130_1_0_0_1_n_n_wf

abbrev win0_0 : Pipeline.Window sig grid0 :=
  Pipeline.Window.ofSpec (Memref.whole main_arg0) S2x128x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S130x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S130x130.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x128x128x16 : Shape := ⟨4, ![512, 128, 128, 16]⟩
abbrev S130x128 : Shape := ⟨2, ![130, 128]⟩
abbrev S_ : Shape := ⟨0, ![]⟩
abbrev S128x128 : Shape := ⟨2, ![128, 128]⟩
abbrev S128x130 : Shape := ⟨2, ![128, 130]⟩
abbrev S130x130 : Shape := ⟨2, ![130, 130]⟩
abbrev S1x130x130x1 : Shape := ⟨4, ![1, 130, 130, 1]⟩

abbrev nBuf : Space → Nat
  | .hbm => 8
  | .vmem => 0
  | .smem => 0
  | _ => 0

abbrev bufTy : (tb : Table) → Fin (tcTables nBuf tb) → BufTy
  | .hbm, ⟨0, _⟩ => ⟨S512x128x128x16, .f32⟩
  | .hbm, ⟨1, _⟩ => ⟨S130x128, .f32⟩
  | .hbm, ⟨2, _⟩ => ⟨S_, .f32⟩
  | .hbm, ⟨3, _⟩ => ⟨S128x128, .f32⟩
  | .hbm, ⟨4, _⟩ => ⟨S130x128, .f32⟩
  | .hbm, ⟨5, _⟩ => ⟨S128x130, .f32⟩
  | .hbm, ⟨6, _⟩ => ⟨S130x130, .f32⟩
  | .hbm, ⟨7, _⟩ => ⟨S1x130x130x1, .f32⟩
  | _, _ => ⟨S512x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  reducesTo_S512x128x128x16_S128x128_d0_3 : S512x128x128x16.ReducesTo [0, 3] S128x128
  h_S_ : 0 < S_.numel
  transposes_S130x128_S128x130_1_0 : S130x128.Transposes [1, 0] S128x130
  bcast_S130x130_S1x130x130x1_1_2 : S130x130.BroadcastsInDim S1x130x130x1 (![1, 2] : Fin 2 → Fin S1x130x130x1.rank)
  dot_S130x128_S128x128_S130x128_1_0_0_1_n_n_wf : DotDims.WF S130x128 S128x128 S130x128 [1] [0] [0] [1] [] []
  dot_S130x128_S128x130_S130x130_1_0_0_1_n_n_wf : DotDims.WF S130x128 S128x130 S130x130 [1] [0] [0] [1] [] []

variable [Facts₀]

def dot_S130x128_S128x128_S130x128_1_0_0_1_n_n : DotDims S130x128 S128x128 S130x128 where
  lhsContracting := [1]
  rhsContracting := [0]
  lhsNonContracting := [0]
  rhsNonContracting := [1]
  lhsBatch := []
  rhsBatch := []
  wf := dot_S130x128_S128x128_S130x128_1_0_0_1_n_n_wf
def dot_S130x128_S128x130_S130x130_1_0_0_1_n_n : DotDims S130x128 S128x130 S130x130 where
  lhsContracting := [1]
  rhsContracting := [0]
  lhsNonContracting := [0]
  rhsNonContracting := [1]
  lhsBatch := []
  rhsBatch := []
  wf := dot_S130x128_S128x130_S130x130_1_0_0_1_n_n_wf

class Facts : Prop extends Facts₀ where

variable [Facts]
-- ==== Proof.AccRunKernel.lean ====
/-
  The accumulating kernel's body, run once per control case.

  At a grid point the body (optionally) zeroes the accumulator, loads the point's block of the
  input, sums it over its last and then its first axis, adds that onto the accumulator, and copies
  the accumulator into the output's staging buffer. The only control is the test "is this the first
  grid point", so there are two cases: at the first point the accumulator is overwritten by the zero
  splat before it is read (whatever it held does not matter); at every later point it is read as the
  point before left it. In each case the run is stated with the stores each buffer ends with as a
  list of pieces, which the symbolic execution finds.
-/
import proofs.«122726_j20615843021260_2_alg».proof.Proof.Gen.Kernel.Launch
import proofs.«122726_j20615843021260_2_alg».proof.Proof.Gen.Kernel.Skeleton
import proofs.«122726_j20615843021260_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body's scalar chain computes it from the grid coordinate. -/
abbrev isFirst (i : grid0.Coords) : Prop :=
  (Scalar.cmpi .ne (Scalar.extui (Scalar.cmpi .eq (BitVec.ofNat 32 (i 0).val) 0#32)) 0#32) = 1#1

/-- The test holds at point 0 and nowhere else on the grid of 256 points. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- THE FIRST POINT. The input block at `x`, the output's buffer and the accumulator at anything: the body
    runs to its end with the input untouched and the output's buffer and the accumulator each with its
    pieces written. -/
noncomputable def runFirst (c : Dev nD) (i : grid0.Coords) (arg1 : Memref sig .tc .vmem S2x128x128x16 .f32) (harg1 : arg1.IsWhole)
    (arg2 : Memref sig .tc .vmem S128x128 .f32) (harg2 : arg2.IsWhole) (arg3 : Memref sig .tc .vmem S128x128 .f32) (harg3 : arg3.IsWhole)
    (hc : isFirst i) (x : Vec F S2x128x128x16 .f32) :
    Σ' (LO : List (View.Piece (Elt F) S128x128 .f32)), { LA : List (View.Piece (Elt F) S128x128 .f32) //
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LA)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%ds, %fs, -, HS⟩, Hk⟩
    obtain rfl := harg1.eq_unread hf0
    sl_exec (disch := first | exact hc)
    sl_step
    iapply Hk
    isplitl [H0]
    · iexists _; isplitr; · ipureintro; exact harg1.read_unread _
      iexact H0
    isplitl [H1]; · iexists _; iexact H1
    iexists _; iexact HS

set_option maxHeartbeats 1000000 in
/-- A LATER POINT. The input block at `x`, the output's buffer at anything, the accumulator at what the
    point before left, `s`: the same, the accumulator's pieces now computed from `s`. -/
noncomputable def runLater (c : Dev nD) (i : grid0.Coords) (arg1 : Memref sig .tc .vmem S2x128x128x16 .f32) (harg1 : arg1.IsWhole)
    (arg2 : Memref sig .tc .vmem S128x128 .f32) (harg2 : arg2.IsWhole) (arg3 : Memref sig .tc .vmem S128x128 .f32) (harg3 : arg3.IsWhole)
    (hc : ¬isFirst i) (x : Vec F S2x128x128x16 .f32) (s : Vec F S128x128 .f32) :
    Σ' (LO : List (View.Piece (Elt F) S128x128 .f32)), { LA : List (View.Piece (Elt F) S128x128 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare s
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LA)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc)
    sl_step
    iapply Hk
    isplitl [H0]
    · iexists _; isplitr; · ipureintro; exact harg1.read_unread _
      iexact H0
    isplitl [H1]; · iexists _; iexact H1
    iexists _; iexact HS

end Cert.Kernel.Acc

end
-- ==== Proof.AccDataKernel.lean ====
/-
  The accumulating region's proof data.

  Point by point: after point 0 the accumulator holds what the first-point case leaves from the block at
  point 0; after point n+1 what the later-point case leaves from the block at point n+1 and what the
  accumulator held after point n; the output's staging buffer holds the same as the accumulator after
  every point (the body copies it out each time; the pipeline writes it back after the last point only).
  The region invariant carries the accumulator at those contents between points, beside the scoped
  buffers the region never touches (the second kernel's staging buffers) and the generator register.
-/
import proofs.«122726_j20615843021260_2_alg».proof.Proof.AccRunKernel

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is the entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

/-- One staging buffer of the output window, through which its contents are stated. -/
abbrev VO : View sig .tc .vmem S128x128 .f32 := (Memref.whole cc0_stg1_0 : Memref sig .tc .vmem S128x128 .f32).view
abbrev ms0 (t : Fin cfg0.N) : Memref sig .tc .vmem S2x128x128x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
/-- The accumulator: a whole scoped buffer of the kernel's own. -/
abbrev scM : Memref sig .tc .vmem S128x128 .f32 := Memref.whole cc0_scratch0
abbrev VS : View sig .tc .vmem S128x128 .f32 := scM.view

/-! ## What each case leaves -/

theorem coverFirstO (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) (y : S128x128.Idx) :
    ∃ pc ∈ (runFirst c i arg1 harg1 arg2 harg2 arg3 harg3 hc x).1, y ∈ pc.1.set :=
  View.cover_of_tiledL (runFirst c i arg1 harg1 arg2 harg2 arg3 harg3 hc x).1 S128x128.size (by sl_kernel_rfl) y

theorem coverFirstA (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) (y : S128x128.Idx) :
    ∃ pc ∈ (runFirst c i arg1 harg1 arg2 harg2 arg3 harg3 hc x).2.1, y ∈ pc.1.set :=
  View.cover_of_tiledL (runFirst c i arg1 harg1 arg2 harg2 arg3 harg3 hc x).2.1 S128x128.size (by sl_kernel_rfl) y

theorem coverLaterO (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) (y : S128x128.Idx) :
    ∃ pc ∈ (runLater c i arg1 harg1 arg2 harg2 arg3 harg3 hc x s).1, y ∈ pc.1.set :=
  View.cover_of_tiledL (runLater c i arg1 harg1 arg2 harg2 arg3 harg3 hc x s).1 S128x128.size (by sl_kernel_rfl) y

theorem coverLaterA (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) (y : S128x128.Idx) :
    ∃ pc ∈ (runLater c i arg1 harg1 arg2 harg2 arg3 harg3 hc x s).2.1, y ∈ pc.1.set :=
  View.cover_of_tiledL (runLater c i arg1 harg1 arg2 harg2 arg3 harg3 hc x s).2.1 S128x128.size (by sl_kernel_rfl) y

/-- What the first point leaves in the output's staging buffer, and in the accumulator. -/
def outFirst (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) : Vec F S128x128 .f32 :=
  VO.read (Elt F) (VO.writes (Elt F) VO.junk (runFirst c i arg1 harg1 arg2 harg2 arg3 harg3 hc x).1)
def accFirst (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) : Vec F S128x128 .f32 :=
  VS.read (Elt F) (VS.writes (Elt F) VS.junk (runFirst c i arg1 harg1 arg2 harg2 arg3 harg3 hc x).2.1)
/-- What a later point leaves in them, from the accumulator's contents `s` before it. -/
def outLater (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) : Vec F S128x128 .f32 :=
  VO.read (Elt F) (VO.writes (Elt F) VO.junk (runLater c i arg1 harg1 arg2 harg2 arg3 harg3 hc x s).1)
def accLater (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) : Vec F S128x128 .f32 :=
  VS.read (Elt F) (VS.writes (Elt F) VS.junk (runLater c i arg1 harg1 arg2 harg2 arg3 harg3 hc x s).2.1)

/-! ## Point by point -/

theorem first_zero (hn : 0 < cfg0.N) : isFirst (grid0.coords ⟨0, hn⟩) := (isFirst_iff ⟨0, hn⟩).mpr rfl
theorem later_succ (n : ℕ) (hn : n + 1 < cfg0.N) : ¬isFirst (grid0.coords ⟨n + 1, hn⟩) :=
  fun h => Nat.succ_ne_zero n ((isFirst_iff ⟨n + 1, hn⟩).mp h)

/-- THE ACCUMULATION: the output's staging buffer and the accumulator after the body at position `n`. -/
def outsAt (c : Dev nD) : (n : ℕ) → n < cfg0.N → Vec F S128x128 .f32 × Vec F S128x128 .f32
  | 0, hn => (outFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩),
      accFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt c n (Nat.lt_of_succ_lt hn)).2,
      accLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt c n (Nat.lt_of_succ_lt hn)).2)

theorem outsAt_first (c : Dev nD) (t : Fin cfg0.N) (hz : t.val = 0) :
    outsAt V c t.val t.isLt = (outFirst c (grid0.coords t) (ms0 t) (hs0 t) (ms1 t) (hs1 t) scM (Memref.isWhole_whole _) ((isFirst_iff t).mpr hz) (iblk V c 0 t),
      accFirst c (grid0.coords t) (ms0 t) (hs0 t) (ms1 t) (hs1 t) scM (Memref.isWhole_whole _) ((isFirst_iff t).mpr hz) (iblk V c 0 t)) := by
  obtain ⟨n, hn⟩ := t
  cases n with
  | zero => exact rfl
  | succ n => exact absurd hz (Nat.succ_ne_zero n)

theorem outsAt_later (c : Dev nD) (t : Fin cfg0.N) (hz : t.val ≠ 0) :
    outsAt V c t.val t.isLt = (outLater c (grid0.coords t) (ms0 t) (hs0 t) (ms1 t) (hs1 t) scM (Memref.isWhole_whole _) (fun h => hz ((isFirst_iff t).mp h)) (iblk V c 0 t) (outsAt V c (t.val - 1) (Nat.lt_of_le_of_lt (Nat.sub_le _ _) t.isLt)).2,
      accLater c (grid0.coords t) (ms0 t) (hs0 t) (ms1 t) (hs1 t) scM (Memref.isWhole_whole _) (fun h => hz ((isFirst_iff t).mp h)) (iblk V c 0 t) (outsAt V c (t.val - 1) (Nat.lt_of_le_of_lt (Nat.sub_le _ _) t.isLt)).2) := by
  obtain ⟨n, hn⟩ := t
  cases n with
  | zero => exact absurd rfl hz
  | succ n => exact rfl

/-! ## The region invariant -/

/-- The scoped buffers the region never touches: the second kernel's three staging buffers, each at something. -/
abbrev otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The class invariant spelt out: the accumulator at something, those three, the generator register. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA; rw [scopedRest0_eq]; simp only [scM, owns_whole]; try rfl

/-- Before position `n`: at the start the class invariant; afterwards the accumulator at what the point
    before left. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The proof data -/

/-- The arrays as the region finds them; after the body at point `t` the input's buffer at its block and the
    output's at the accumulation; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]

theorem before_in (c : Dev nD) (t : Fin cfg0.N) (d) : (dat V c).before 0 t d = iblk V c 0 t :=
  before_in_of V (dat V c) (A_eq V c 0) (after_in V c) t d

end Cert.Kernel.Acc

end
-- ==== Proof.AccBodyKernel.lean ====
/-
  The accumulating region's body obligation: at every grid point the body, called on the point's staging
  buffers with the invariant's accumulator, runs to its end leaving the invariant of the next point. At the
  first point the accumulator is handed over at whatever it holds; at a later point at what the point
  before left, which the later-point case reads. The output's staging buffer is overwritten whole at every
  point, so what it held does not matter.
-/
import proofs.«122726_j20615843021260_2_alg».proof.Proof.AccDataKernel

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t))

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ, after_in, after_out]
  by_cases hz : t.val = 0
  · rw [outsAt_first V c t hz]
    unfold outFirst accFirst; (try dsimp only)
    rw [PhiS_castSucc V c t, PhiS_zero V c _ _ hz, PhiA_eq]
    iintro ⟨⟨⟨HS, Hrest⟩, Hg⟩, Ho, ⟨%d0, H0⟩, ⟨%d1, H1⟩⟩
    iapply ((runFirst c (grid0.coords t) _ _ _ _ _ _ ((isFirst_iff t).mpr hz) (iblk V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverFirstA c _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverFirstO c _ _ _ _ _ _ _ _ _)
  · rw [outsAt_later V c t hz]
    unfold outLater accLater; (try dsimp only)
    rw [PhiS_castSucc V c t, PhiS_pos V c _ _ hz]
    iintro ⟨⟨⟨HS, Hrest⟩, Hg⟩, Ho, ⟨%d0, H0⟩, ⟨%d1, H1⟩⟩
    iapply ((runLater c (grid0.coords t) _ _ _ _ _ _ (fun h => hz ((isFirst_iff t).mp h)) (iblk V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverLaterA c _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverLaterO c _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- The class invariant is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem phi_out (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.Kernel.Acc

end
-- ==== Proof.PadRunKernel.lean ====
/-
  The second kernel's body: it loads the whole [130,128] matrix `p` and the whole [128,128] matrix `xs`,
  forms (p · xs) · pᵀ by two matrix products into zero accumulators, and stores the [130,130] result
  over the whole output buffer. One grid point, no control: the body's triple is stated directly, the
  output buffer ending at the one stored piece read back.
-/
import proofs.«122726_j20615843021260_2_alg».proof.Proof.Gen.Kernel.Launch
import proofs.«122726_j20615843021260_2_alg».proof.Proof.Gen.Kernel.Skeleton
import proofs.«122726_j20615843021260_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body reads and writes through. -/
abbrev rP : Rect S130x128 := Rect.unit (s := S130x128) ![0, 0] S130x128.size inb_S130x128_S130x128_0_0
abbrev rX : Rect S128x128 := Rect.unit (s := S128x128) ![0, 0] S128x128.size inb_S128x128_S128x128_0_0
abbrev rO : Rect S130x130 := Rect.unit (s := S130x130) ![0, 0] S130x130.size inb_S130x130_S130x130_0_0

/-- What the body leaves in the output's buffer: its one store, of the double product of what it loaded. -/
def padOut (p : Vec F S130x128 .f32) (xs : Vec F S128x128 .f32) : Vec F S130x130 .f32 :=
  View.canon [⟨rO, k1_pay1 (View.ld p rP) (View.ld xs rX)⟩]

/-- The one store covers the output's buffer. -/
theorem padCover (q : Vec F S130x130 .f32) (y : S130x130.Idx) :
    ∃ pc ∈ ([⟨rO, q⟩] : List (View.Piece (Elt F) S130x130 .f32)), y ∈ pc.1.set :=
  View.cover_of_tiled [⟨rO, q⟩] S130x130.size (by rfl) y

set_option maxHeartbeats 1000000 in
/-- The body's triple: the two inputs at `p` and `xs`, the output at anything, to the inputs as they were
    and the output at `padOut p xs`. -/
theorem sound_pad (c : Dev nD) (E : Set ℕ) (i : grid1.Coords) (arg1 : Memref sig .tc .vmem S130x128 .f32) (harg1 : arg1.IsWhole)
    (arg2 : Memref sig .tc .vmem S128x128 .f32) (harg2 : arg2.IsWhole) (arg3 : Memref sig .tc .vmem S130x130 .f32) (harg3 : arg3.IsWhole)
    (p : Vec F S130x128 .f32) (xs : Vec F S128x128 .f32) (K : PUnit → sProp 𝕄) :
    iprop(owns (c : Thread nD τ) arg1 fullShare p ∗ owns (c : Thread nD τ) arg2 fullShare xs ∗ (∃ d, owns (c : Thread nD τ) arg3 fullShare d)
        ∗ (iprop(owns (c : Thread nD τ) arg1 fullShare p ∗ owns (c : Thread nD τ) arg2 fullShare xs
            ∗ owns (c : Thread nD τ) arg3 fullShare (padOut p xs)) -∗ K ⟨⟩))
      ⊢ wp frame (wpE (defs₀ (F := F)) Variants.none c none) E (cc1__pad_kernel i arg1 harg1 arg2 harg2 arg3 harg3) K := by
  simp only [cc1__pad_kernel_eq_skeleton]; unfold cc1__pad_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (padCover _)

end Cert.Kernel.Pad

end
-- ==== Proof.PadDataKernel.lean ====
/-
  The second region's proof data and body obligation: one grid point, the two inputs' staging buffers at
  the whole arrays `p` and `xs` as the region finds them, the output's at the body's one store; the class
  invariant (the region uses no scratch), nothing owed.
-/
import proofs.«122726_j20615843021260_2_alg».proof.Proof.PadRunKernel

set_option maxRecDepth 16384

noncomputable section

namespace Cert.Kernel.Pad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_p_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_xs_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => padOut (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_p (c : Dev nD) (t : Fin cfg1.N) : (dat V c).after 0 t = iblk V c 0 t := by dsimp only [dat]
theorem after_xs (c : Dev nD) (t : Fin cfg1.N) : (dat V c).after 1 t = iblk V c 1 t := by dsimp only [dat]
theorem after_out (c : Dev nD) (t : Fin cfg1.N) : (dat V c).after 2 t = padOut (iblk V c 0 t) (iblk V c 1 t) := by dsimp only [dat]

theorem before_p (c : Dev nD) (t : Fin cfg1.N) (d) : (dat V c).before 0 t d = iblk V c 0 t :=
  before_p_of V (dat V c) (A_eq V c 0) (after_p V c) t d
theorem before_xs (c : Dev nD) (t : Fin cfg1.N) (d) : (dat V c).before 1 t d = iblk V c 1 t :=
  before_xs_of V (dat V c) (A_eq V c 1) (after_xs V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_p, before_xs]
  rw [show (dat V c).Φ t.succ = (dat V c).Φ t.castSucc from rfl,
    show (dat V c).owesAt () t.succ = (dat V c).owesAt () t.castSucc from rfl,
    after_p, after_xs, after_out]
  iintro ⟨HΦ, Ho, ⟨%d0, H0⟩, ⟨%d1, H1⟩, ⟨%d2, H2⟩⟩
  iapply (sound_pad c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.Kernel.Pad

end
-- ==== Proof.RunKernel.lean ====
/-
  The whole program as three items — the accumulating region, the matrix-product region, the final
  broadcast on the host — run from the launch to the return, with every unscoped buffer's contents named
  at each boundary: after a region its arrays hold what its write-backs leave and every other buffer is as
  it was; after the host line the result is the broadcast of the second region's output.
-/
import proofs.«122726_j20615843021260_2_alg».proof.Proof.AccBodyKernel
import proofs.«122726_j20615843021260_2_alg».proof.Proof.PadDataKernel
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the accumulating region: its arrays at what its write-backs leave, the rest as entered. -/
def W1 (c : Dev nD) : Valuation τ sig (Elt F) :=
  Pipeline.withArrays spec0 c (W0 m c) fun w => (Acc.dat (V0 m) c).arrAt w cfg0.N
theorem W1_arr (c : Dev nD) (w : Fin cfg0.W) :
    W1 m c (Proc.devRef .tc (Pipeline.arrRef spec0 w)) = (Acc.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Acc.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the matrix-product region. -/
def W2 (c : Dev nD) : Valuation τ sig (Elt F) :=
  Pipeline.withArrays spec1 c (W1 m c) fun w => (Pad.dat (V1 m) c).arrAt w cfg1.N
theorem W2_arr (c : Dev nD) (w : Fin cfg1.W) :
    W2 m c (Proc.devRef .tc (Pipeline.arrRef spec1 w)) = (Pad.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Pad.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host's broadcast. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Acc.dat (V0 m) c
  | ⟨1, _⟩ => fun c => Pad.dat (V1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Acc.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Acc.dat (V0 m) c).Φ 0 from rfl]
    refine BIBase.Entails.trans ?_ (Acc.phi_in (V0 m) c)
    unfold Pipeline.ΦA
    iintro ⟨Hp, -, Hr⟩
    isplitl [Hr]; · iexact Hr
    iexact Hp
  hout c := by
    rw [Pipeline.ownSems0_none, show (pdats m 0 c).Φ (Fin.last _) = (Acc.dat (V0 m) c).Φ (Fin.last cfg0.N) from rfl]
    refine BIBase.Entails.trans (Acc.phi_out (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pad.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Whole

end
-- ==== Proof.FrameKernel.lean ====
/-
  The frame: at the end each argument array holds its launch contents. The host's broadcast writes only
  the result; the matrix-product region reads the [130,128] argument through an input window (an input's
  array is never written back) and does not touch the big argument; the accumulating region reads the
  big argument through an input window and does not touch the other.
-/
import proofs.«122726_j20615843021260_2_alg».proof.Proof.RunKernel

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host line leaves every buffer but the result as it was. -/
theorem W3_of_ne (c : Dev nD) (b : Ref sig .tc) (hb : b ≠ main_v2) :
    W3 m c (Proc.devRef .tc b) = W2 m c (Proc.devRef .tc b) :=
  StableHlo.after_of_forall_not_mem (b := Proc.devRef .tc b) _ _ (List.forall_iff_forall_mem.mp (by
    simp only [hostOps2, List.Forall, StableHlo.unary_writes, Finset.mem_singleton]
    repeat' apply And.intro
    all_goals exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((Acc.dat (V0 m) c).arrAt_in 0 rfl _).trans (Acc.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((Pad.dat (V1 m) c).arrAt_in 0 rfl _).trans (Pad.A_eq (V1 m) c 0))
    _ = W0 m c (Proc.devRef .tc main_arg1) := W1_of_ne m c main_arg1 (by decide)
    _ = m ((c : Thread nD τ).loc main_arg1) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.Kernel.Whole

end
-- ==== Proof.AccRunKernelIdeal.lean ====
/-
  The accumulating kernel's body, run once per control case.

  At a grid point the body (optionally) zeroes the accumulator, loads the point's block of the
  input, sums it over its last and then its first axis, adds that onto the accumulator, and copies
  the accumulator into the output's staging buffer. The only control is the test "is this the first
  grid point", so there are two cases: at the first point the accumulator is overwritten by the zero
  splat before it is read (whatever it held does not matter); at every later point it is read as the
  point before left it. In each case the run is stated with the stores each buffer ends with as a
  list of pieces, which the symbolic execution finds.
-/
import proofs.«122726_j20615843021260_2_alg».proof.Proof.Gen.KernelIdeal.Launch
import proofs.«122726_j20615843021260_2_alg».proof.Proof.Gen.KernelIdeal.Skeleton
import proofs.«122726_j20615843021260_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body's scalar chain computes it from the grid coordinate. -/
abbrev isFirst (i : grid0.Coords) : Prop :=
  (Scalar.cmpi .ne (Scalar.extui (Scalar.cmpi .eq (BitVec.ofNat 32 (i 0).val) 0#32)) 0#32) = 1#1

/-- The test holds at point 0 and nowhere else on the grid of 256 points. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- THE FIRST POINT. The input block at `x`, the output's buffer and the accumulator at anything: the body
    runs to its end with the input untouched and the output's buffer and the accumulator each with its
    pieces written. -/
noncomputable def runFirst (c : Dev nD) (i : grid0.Coords) (arg1 : Memref sig .tc .vmem S2x128x128x16 .f32) (harg1 : arg1.IsWhole)
    (arg2 : Memref sig .tc .vmem S128x128 .f32) (harg2 : arg2.IsWhole) (arg3 : Memref sig .tc .vmem S128x128 .f32) (harg3 : arg3.IsWhole)
    (hc : isFirst i) (x : Vec F S2x128x128x16 .f32) :
    Σ' (LO : List (View.Piece (Elt F) S128x128 .f32)), { LA : List (View.Piece (Elt F) S128x128 .f32) //
      ∀ (E : Set ℕ) (K : PUnit → sProp 𝕄),
        iprop(owns (c : Thread nD τ) arg1 fullShare x ∗ (∃ d, owns (c : Thread nD τ) arg2 fullShare d) ∗ (∃ d, owns (c : Thread nD τ) arg3 fullShare d)
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LA)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%ds, %fs, -, HS⟩, Hk⟩
    obtain rfl := harg1.eq_unread hf0
    sl_exec (disch := first | exact hc)
    sl_step
    iapply Hk
    isplitl [H0]
    · iexists _; isplitr; · ipureintro; exact harg1.read_unread _
      iexact H0
    isplitl [H1]; · iexists _; iexact H1
    iexists _; iexact HS

set_option maxHeartbeats 1000000 in
/-- A LATER POINT. The input block at `x`, the output's buffer at anything, the accumulator at what the
    point before left, `s`: the same, the accumulator's pieces now computed from `s`. -/
noncomputable def runLater (c : Dev nD) (i : grid0.Coords) (arg1 : Memref sig .tc .vmem S2x128x128x16 .f32) (harg1 : arg1.IsWhole)
    (arg2 : Memref sig .tc .vmem S128x128 .f32) (harg2 : arg2.IsWhole) (arg3 : Memref sig .tc .vmem S128x128 .f32) (harg3 : arg3.IsWhole)
    (hc : ¬isFirst i) (x : Vec F S2x128x128x16 .f32) (s : Vec F S128x128 .f32) :
    Σ' (LO : List (View.Piece (Elt F) S128x128 .f32)), { LA : List (View.Piece (Elt F) S128x128 .f32) //
      ∀ (E : Set ℕ) (K : PUnit → sProp 𝕄),
        iprop(owns (c : Thread nD τ) arg1 fullShare x ∗ (∃ d, owns (c : Thread nD τ) arg2 fullShare d) ∗ owns (c : Thread nD τ) arg3 fullShare s
            ∗ (iprop(owns (c : Thread nD τ) arg1 fullShare x
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LA)) -∗ K ⟨⟩))
          ⊢ wp frame (wpE (defs₀ (F := F)) Variants.none c none) E (cc0__reduce_kernel i arg1 harg1 arg2 harg2 arg3 harg3) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs, %hfs, HS⟩, Hk⟩
    obtain rfl := harg1.eq_unread hf0; obtain rfl := harg3.eq_unread hfs
    sl_exec (disch := first | exact hc)
    sl_step
    iapply Hk
    isplitl [H0]
    · iexists _; isplitr; · ipureintro; exact harg1.read_unread _
      iexact H0
    isplitl [H1]; · iexists _; iexact H1
    iexists _; iexact HS

end Cert.KernelIdeal.Acc

end
-- ==== Proof.AccDataKernelIdeal.lean ====
/-
  The accumulating region's proof data.

  Point by point: after point 0 the accumulator holds what the first-point case leaves from the block at
  point 0; after point n+1 what the later-point case leaves from the block at point n+1 and what the
  accumulator held after point n; the output's staging buffer holds the same as the accumulator after
  every point (the body copies it out each time; the pipeline writes it back after the last point only).
  The region invariant carries the accumulator at those contents between points, beside the scoped
  buffers the region never touches (the second kernel's staging buffers) and the generator register.
-/
import proofs.«122726_j20615843021260_2_alg».proof.Proof.AccRunKernelIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array
    is the entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

/-- One staging buffer of the output window, through which its contents are stated. -/
abbrev VO : View sig .tc .vmem S128x128 .f32 := (Memref.whole cc0_stg1_0 : Memref sig .tc .vmem S128x128 .f32).view
abbrev ms0 (t : Fin cfg0.N) : Memref sig .tc .vmem S2x128x128x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
/-- The accumulator: a whole scoped buffer of the kernel's own. -/
abbrev scM : Memref sig .tc .vmem S128x128 .f32 := Memref.whole cc0_scratch0
abbrev VS : View sig .tc .vmem S128x128 .f32 := scM.view

/-! ## What each case leaves -/

theorem coverFirstO (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) (y : S128x128.Idx) :
    ∃ pc ∈ (runFirst c i arg1 harg1 arg2 harg2 arg3 harg3 hc x).1, y ∈ pc.1.set :=
  View.cover_of_tiledL (runFirst c i arg1 harg1 arg2 harg2 arg3 harg3 hc x).1 S128x128.size (by sl_kernel_rfl) y

theorem coverFirstA (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) (y : S128x128.Idx) :
    ∃ pc ∈ (runFirst c i arg1 harg1 arg2 harg2 arg3 harg3 hc x).2.1, y ∈ pc.1.set :=
  View.cover_of_tiledL (runFirst c i arg1 harg1 arg2 harg2 arg3 harg3 hc x).2.1 S128x128.size (by sl_kernel_rfl) y

theorem coverLaterO (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) (y : S128x128.Idx) :
    ∃ pc ∈ (runLater c i arg1 harg1 arg2 harg2 arg3 harg3 hc x s).1, y ∈ pc.1.set :=
  View.cover_of_tiledL (runLater c i arg1 harg1 arg2 harg2 arg3 harg3 hc x s).1 S128x128.size (by sl_kernel_rfl) y

theorem coverLaterA (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) (y : S128x128.Idx) :
    ∃ pc ∈ (runLater c i arg1 harg1 arg2 harg2 arg3 harg3 hc x s).2.1, y ∈ pc.1.set :=
  View.cover_of_tiledL (runLater c i arg1 harg1 arg2 harg2 arg3 harg3 hc x s).2.1 S128x128.size (by sl_kernel_rfl) y

/-- What the first point leaves in the output's staging buffer, and in the accumulator. -/
def outFirst (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) : Vec F S128x128 .f32 :=
  VO.read (Elt F) (VO.writes (Elt F) VO.junk (runFirst c i arg1 harg1 arg2 harg2 arg3 harg3 hc x).1)
def accFirst (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) : Vec F S128x128 .f32 :=
  VS.read (Elt F) (VS.writes (Elt F) VS.junk (runFirst c i arg1 harg1 arg2 harg2 arg3 harg3 hc x).2.1)
/-- What a later point leaves in them, from the accumulator's contents `s` before it. -/
def outLater (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) : Vec F S128x128 .f32 :=
  VO.read (Elt F) (VO.writes (Elt F) VO.junk (runLater c i arg1 harg1 arg2 harg2 arg3 harg3 hc x s).1)
def accLater (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) : Vec F S128x128 .f32 :=
  VS.read (Elt F) (VS.writes (Elt F) VS.junk (runLater c i arg1 harg1 arg2 harg2 arg3 harg3 hc x s).2.1)

/-! ## Point by point -/

theorem first_zero (hn : 0 < cfg0.N) : isFirst (grid0.coords ⟨0, hn⟩) := (isFirst_iff ⟨0, hn⟩).mpr rfl
theorem later_succ (n : ℕ) (hn : n + 1 < cfg0.N) : ¬isFirst (grid0.coords ⟨n + 1, hn⟩) :=
  fun h => Nat.succ_ne_zero n ((isFirst_iff ⟨n + 1, hn⟩).mp h)

/-- THE ACCUMULATION: the output's staging buffer and the accumulator after the body at position `n`. -/
def outsAt (c : Dev nD) : (n : ℕ) → n < cfg0.N → Vec F S128x128 .f32 × Vec F S128x128 .f32
  | 0, hn => (outFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩),
      accFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt c n (Nat.lt_of_succ_lt hn)).2,
      accLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt c n (Nat.lt_of_succ_lt hn)).2)

theorem outsAt_first (c : Dev nD) (t : Fin cfg0.N) (hz : t.val = 0) :
    outsAt V c t.val t.isLt = (outFirst c (grid0.coords t) (ms0 t) (hs0 t) (ms1 t) (hs1 t) scM (Memref.isWhole_whole _) ((isFirst_iff t).mpr hz) (iblk V c 0 t),
      accFirst c (grid0.coords t) (ms0 t) (hs0 t) (ms1 t) (hs1 t) scM (Memref.isWhole_whole _) ((isFirst_iff t).mpr hz) (iblk V c 0 t)) := by
  obtain ⟨n, hn⟩ := t
  cases n with
  | zero => exact rfl
  | succ n => exact absurd hz (Nat.succ_ne_zero n)

theorem outsAt_later (c : Dev nD) (t : Fin cfg0.N) (hz : t.val ≠ 0) :
    outsAt V c t.val t.isLt = (outLater c (grid0.coords t) (ms0 t) (hs0 t) (ms1 t) (hs1 t) scM (Memref.isWhole_whole _) (fun h => hz ((isFirst_iff t).mp h)) (iblk V c 0 t) (outsAt V c (t.val - 1) (Nat.lt_of_le_of_lt (Nat.sub_le _ _) t.isLt)).2,
      accLater c (grid0.coords t) (ms0 t) (hs0 t) (ms1 t) (hs1 t) scM (Memref.isWhole_whole _) (fun h => hz ((isFirst_iff t).mp h)) (iblk V c 0 t) (outsAt V c (t.val - 1) (Nat.lt_of_le_of_lt (Nat.sub_le _ _) t.isLt)).2) := by
  obtain ⟨n, hn⟩ := t
  cases n with
  | zero => exact absurd rfl hz
  | succ n => exact rfl

/-! ## The region invariant -/

/-- The scoped buffers the region never touches: the second kernel's three staging buffers, each at something. -/
abbrev otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The class invariant spelt out: the accumulator at something, those three, the generator register. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA; rw [scopedRest0_eq]; simp only [scM, owns_whole]; try rfl

/-- Before position `n`: at the start the class invariant; afterwards the accumulator at what the point
    before left. -/
def PhiS (c : Dev nD) : (n : ℕ) → n ≤ cfg0.N → sProp 𝕄
  | 0, _ => Pipeline.ΦA spec0 c
  | n + 1, hn => iprop(iprop(owns (c : Thread nD τ) scM fullShare ((outsAt V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ otherScoped c) ∗ (∃ r, prngReg c r)) := by
  cases n with
  | zero => exact absurd rfl hz
  | succ n => rfl

/-! ## The proof data -/

/-- The arrays as the region finds them; after the body at point `t` the input's buffer at its block and the
    output's at the accumulation; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_out (c : Dev nD) (t : Fin cfg0.N) : (dat V c).after 1 t = (outsAt V c t.val t.isLt).1 := by dsimp only [dat]

theorem before_in (c : Dev nD) (t : Fin cfg0.N) (d) : (dat V c).before 0 t d = iblk V c 0 t :=
  before_in_of V (dat V c) (A_eq V c 0) (after_in V c) t d

end Cert.KernelIdeal.Acc

end
-- ==== Proof.AccBodyKernelIdeal.lean ====
/-
  The accumulating region's body obligation: at every grid point the body, called on the point's staging
  buffers with the invariant's accumulator, runs to its end leaving the invariant of the next point. At the
  first point the accumulator is handed over at whatever it holds; at a later point at what the point
  before left, which the later-point case reads. The output's staging buffer is overwritten whole at every
  point, so what it held does not matter.
-/
import proofs.«122726_j20615843021260_2_alg».proof.Proof.AccDataKernelIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t))

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ, after_in, after_out]
  by_cases hz : t.val = 0
  · rw [outsAt_first V c t hz]
    unfold outFirst accFirst; (try dsimp only)
    rw [PhiS_castSucc V c t, PhiS_zero V c _ _ hz, PhiA_eq]
    iintro ⟨⟨⟨HS, Hrest⟩, Hg⟩, Ho, ⟨%d0, H0⟩, ⟨%d1, H1⟩⟩
    iapply ((runFirst c (grid0.coords t) _ _ _ _ _ _ ((isFirst_iff t).mpr hz) (iblk V c 0 t)).2.2 Set.univ _)
    isplitl [H0]; · iexact H0
    isplitl [H1]; · iexists _; iexact H1
    isplitl [HS]; · iexact HS
    iintro ⟨H0, ⟨%e1, H1⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverFirstA c _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverFirstO c _ _ _ _ _ _ _ _ _)
  · rw [outsAt_later V c t hz]
    unfold outLater accLater; (try dsimp only)
    rw [PhiS_castSucc V c t, PhiS_pos V c _ _ hz]
    iintro ⟨⟨⟨HS, Hrest⟩, Hg⟩, Ho, ⟨%d0, H0⟩, ⟨%d1, H1⟩⟩
    iapply ((runLater c (grid0.coords t) _ _ _ _ _ _ (fun h => hz ((isFirst_iff t).mp h)) (iblk V c 0 t) _).2.2 Set.univ _)
    isplitl [H0]; · iexact H0
    isplitl [H1]; · iexists _; iexact H1
    isplitl [HS]; · iexact HS
    iintro ⟨H0, ⟨%e1, H1⟩, ⟨%es, HS⟩⟩
    isplitl [HS Hrest Hg]
    · isplitl [HS Hrest]
      · isplitl [HS]
        · unfold owns; iexists _; isplitr
          swap; · iexact HS
          ipureintro; exact View.read_writes_of_cover _ _ _ _ _ (coverLaterA c _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (coverLaterO c _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

/-- The class invariant is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem phi_out (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hrest⟩, Hg⟩
  isplitl [HS Hrest]
  · isplitl [HS]
    · iexists _; iexact HS
    iexact Hrest
  iexact Hg

end Cert.KernelIdeal.Acc

end
-- ==== Proof.PadRunKernelIdeal.lean ====
/-
  The second kernel's body: it loads the whole [130,128] matrix `p` and the whole [128,128] matrix `xs`,
  forms (p · xs) · pᵀ by two matrix products into zero accumulators, and stores the [130,130] result
  over the whole output buffer. One grid point, no control: the body's triple is stated directly, the
  output buffer ending at the one stored piece read back.
-/
import proofs.«122726_j20615843021260_2_alg».proof.Proof.Gen.KernelIdeal.Launch
import proofs.«122726_j20615843021260_2_alg».proof.Proof.Gen.KernelIdeal.Skeleton
import proofs.«122726_j20615843021260_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body reads and writes through. -/
abbrev rP : Rect S130x128 := Rect.unit (s := S130x128) ![0, 0] S130x128.size inb_S130x128_S130x128_0_0
abbrev rX : Rect S128x128 := Rect.unit (s := S128x128) ![0, 0] S128x128.size inb_S128x128_S128x128_0_0
abbrev rO : Rect S130x130 := Rect.unit (s := S130x130) ![0, 0] S130x130.size inb_S130x130_S130x130_0_0

/-- What the body leaves in the output's buffer: its one store, of the double product of what it loaded. -/
def padOut (p : Vec F S130x128 .f32) (xs : Vec F S128x128 .f32) : Vec F S130x130 .f32 :=
  View.canon [⟨rO, k1_pay1 (View.ld p rP) (View.ld xs rX)⟩]

/-- The one store covers the output's buffer. -/
theorem padCover (q : Vec F S130x130 .f32) (y : S130x130.Idx) :
    ∃ pc ∈ ([⟨rO, q⟩] : List (View.Piece (Elt F) S130x130 .f32)), y ∈ pc.1.set :=
  View.cover_of_tiled [⟨rO, q⟩] S130x130.size (by rfl) y

set_option maxHeartbeats 1000000 in
/-- The body's triple: the two inputs at `p` and `xs`, the output at anything, to the inputs as they were
    and the output at `padOut p xs`. -/
theorem sound_pad (c : Dev nD) (E : Set ℕ) (i : grid1.Coords) (arg1 : Memref sig .tc .vmem S130x128 .f32) (harg1 : arg1.IsWhole)
    (arg2 : Memref sig .tc .vmem S128x128 .f32) (harg2 : arg2.IsWhole) (arg3 : Memref sig .tc .vmem S130x130 .f32) (harg3 : arg3.IsWhole)
    (p : Vec F S130x128 .f32) (xs : Vec F S128x128 .f32) (K : PUnit → sProp 𝕄) :
    iprop(owns (c : Thread nD τ) arg1 fullShare p ∗ owns (c : Thread nD τ) arg2 fullShare xs ∗ (∃ d, owns (c : Thread nD τ) arg3 fullShare d)
        ∗ (iprop(owns (c : Thread nD τ) arg1 fullShare p ∗ owns (c : Thread nD τ) arg2 fullShare xs
            ∗ owns (c : Thread nD τ) arg3 fullShare (padOut p xs)) -∗ K ⟨⟩))
      ⊢ wp frame (wpE (defs₀ (F := F)) Variants.none c none) E (cc1__pad_kernel i arg1 harg1 arg2 harg2 arg3 harg3) K := by
  simp only [cc1__pad_kernel_eq_skeleton]; unfold cc1__pad_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (padCover _)

end Cert.KernelIdeal.Pad

end
-- ==== Proof.PadDataKernelIdeal.lean ====
/-
  The second region's proof data and body obligation: one grid point, the two inputs' staging buffers at
  the whole arrays `p` and `xs` as the region finds them, the output's at the body's one store; the class
  invariant (the region uses no scratch), nothing owed.
-/
import proofs.«122726_j20615843021260_2_alg».proof.Proof.PadRunKernelIdeal

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_p_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_xs_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => padOut (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_p (c : Dev nD) (t : Fin cfg1.N) : (dat V c).after 0 t = iblk V c 0 t := by dsimp only [dat]
theorem after_xs (c : Dev nD) (t : Fin cfg1.N) : (dat V c).after 1 t = iblk V c 1 t := by dsimp only [dat]
theorem after_out (c : Dev nD) (t : Fin cfg1.N) : (dat V c).after 2 t = padOut (iblk V c 0 t) (iblk V c 1 t) := by dsimp only [dat]

theorem before_p (c : Dev nD) (t : Fin cfg1.N) (d) : (dat V c).before 0 t d = iblk V c 0 t :=
  before_p_of V (dat V c) (A_eq V c 0) (after_p V c) t d
theorem before_xs (c : Dev nD) (t : Fin cfg1.N) (d) : (dat V c).before 1 t d = iblk V c 1 t :=
  before_xs_of V (dat V c) (A_eq V c 1) (after_xs V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_p, before_xs]
  rw [show (dat V c).Φ t.succ = (dat V c).Φ t.castSucc from rfl,
    show (dat V c).owesAt () t.succ = (dat V c).owesAt () t.castSucc from rfl,
    after_p, after_xs, after_out]
  iintro ⟨HΦ, Ho, ⟨%d0, H0⟩, ⟨%d1, H1⟩, ⟨%d2, H2⟩⟩
  iapply (sound_pad c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.KernelIdeal.Pad

end
-- ==== Proof.RunKernelIdeal.lean ====
/-
  The whole program as three items — the accumulating region, the matrix-product region, the final
  broadcast on the host — run from the launch to the return, with every unscoped buffer's contents named
  at each boundary: after a region its arrays hold what its write-backs leave and every other buffer is as
  it was; after the host line the result is the broadcast of the second region's output.
-/
import proofs.«122726_j20615843021260_2_alg».proof.Proof.AccBodyKernelIdeal
import proofs.«122726_j20615843021260_2_alg».proof.Proof.PadDataKernelIdeal
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the accumulating region: its arrays at what its write-backs leave, the rest as entered. -/
def W1 (c : Dev nD) : Valuation τ sig (Elt F) :=
  Pipeline.withArrays spec0 c (W0 m c) fun w => (Acc.dat (V0 m) c).arrAt w cfg0.N
theorem W1_arr (c : Dev nD) (w : Fin cfg0.W) :
    W1 m c (Proc.devRef .tc (Pipeline.arrRef spec0 w)) = (Acc.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Acc.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the matrix-product region. -/
def W2 (c : Dev nD) : Valuation τ sig (Elt F) :=
  Pipeline.withArrays spec1 c (W1 m c) fun w => (Pad.dat (V1 m) c).arrAt w cfg1.N
theorem W2_arr (c : Dev nD) (w : Fin cfg1.W) :
    W2 m c (Proc.devRef .tc (Pipeline.arrRef spec1 w)) = (Pad.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Pad.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host's broadcast. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Acc.dat (V0 m) c
  | ⟨1, _⟩ => fun c => Pad.dat (V1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem hostOps2_fresh : (hostOps2 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Acc.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Acc.dat (V0 m) c).Φ 0 from rfl]
    refine BIBase.Entails.trans ?_ (Acc.phi_in (V0 m) c)
    unfold Pipeline.ΦA
    iintro ⟨Hp, -, Hr⟩
    isplitl [Hr]; · iexact Hr
    iexact Hp
  hout c := by
    rw [Pipeline.ownSems0_none, show (pdats m 0 c).Φ (Fin.last _) = (Acc.dat (V0 m) c).Φ (Fin.last cfg0.N) from rfl]
    refine BIBase.Entails.trans (Acc.phi_out (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pad.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Whole

end
-- ==== Proof.FrameKernelIdeal.lean ====
/-
  The frame: at the end each argument array holds its launch contents. The host's broadcast writes only
  the result; the matrix-product region reads the [130,128] argument through an input window (an input's
  array is never written back) and does not touch the big argument; the accumulating region reads the
  big argument through an input window and does not touch the other.
-/
import proofs.«122726_j20615843021260_2_alg».proof.Proof.RunKernelIdeal

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host line leaves every buffer but the result as it was. -/
theorem W3_of_ne (c : Dev nD) (b : Ref sig .tc) (hb : b ≠ main_v2) :
    W3 m c (Proc.devRef .tc b) = W2 m c (Proc.devRef .tc b) :=
  StableHlo.after_of_forall_not_mem (b := Proc.devRef .tc b) _ _ (List.forall_iff_forall_mem.mp (by
    simp only [hostOps2, List.Forall, StableHlo.unary_writes, Finset.mem_singleton]
    repeat' apply And.intro
    all_goals exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 0).trans (((Acc.dat (V0 m) c).arrAt_in 0 rfl _).trans (Acc.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 0).trans (((Pad.dat (V1 m) c).arrAt_in 0 rfl _).trans (Pad.A_eq (V1 m) c 0))
    _ = W0 m c (Proc.devRef .tc main_arg1) := W1_of_ne m c main_arg1 (by decide)
    _ = m ((c : Thread nD τ).loc main_arg1) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Whole

end
-- ==== Proof.LibReadCov.lean ====
/-
  A whole-buffer load after a list of stores whose LAST (the list's head) is a store of the whole buffer at
  zero offsets reads that store's payload, whatever the earlier stores were.
-/
import Idealize.ShloMosaic.Lib.Pipeline.Value

noncomputable section

namespace Idealize.ShloMosaic.View

variable {Val : EltTy → Type} {S : Shape} {e : EltTy}

/-- `View.readCov_unit_zero` with earlier stores under the whole-buffer one: the load reads the head's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.AccFoldKernelIdeal.lean ====
/-
  What the accumulating region's cases leave, as plain terms, and the fold they make.

  Each case's contents are the body's arithmetic applied to what it loaded: at the first point both the
  accumulator and the output's buffer end at "zero splat plus the block's two-axis sum"; at a later point
  at "what the accumulator held plus the block's two-axis sum". So the accumulator after point n is the
  fold of that step over the blocks 0 … n, and the output's buffer always equals the accumulator.
-/
import proofs.«122726_j20615843021260_2_alg».proof.Proof.AccDataKernelIdeal
import proofs.«122726_j20615843021260_2_alg».proof.Proof.LibReadCov
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Each case's contents -/

theorem accFirst_eq (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) :
    accFirst c i arg1 harg1 arg2 harg2 arg3 harg3 hc x = k0_pay2 x (k0_pay1 (F := F)) := by
  unfold accFirst
  rw [View.read_writes_eq_canon _ _ _ (coverFirstA c i arg1 harg1 arg2 harg2 arg3 harg3 hc x)]
  unfold runFirst
  dsimp only
  try sl_unfold_words
  rw [View.canon_cons_unit_zero hz2, View.readCov_unit_zero (S := S128x128) _ hz2]
  simp only [View.readAt_eq_ld, harg1.read_unread, View.ld_unit_zero (S := S2x128x128x16) hz4]

theorem outFirst_eq (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : isFirst i) (x : Vec F S2x128x128x16 .f32) :
    outFirst c i arg1 harg1 arg2 harg2 arg3 harg3 hc x = k0_pay2 x (k0_pay1 (F := F)) := by
  unfold outFirst
  rw [View.read_writes_eq_canon _ _ _ (coverFirstO c i arg1 harg1 arg2 harg2 arg3 harg3 hc x)]
  unfold runFirst
  dsimp only
  try sl_unfold_words
  rw [View.canon_unit_zero hz2, View.readCov_cons_unit_zero (S := S128x128) _ hz2, View.readCov_unit_zero (S := S128x128) _ hz2]
  simp only [View.readAt_eq_ld, harg1.read_unread, View.ld_unit_zero (S := S2x128x128x16) hz4]

theorem accLater_eq (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) :
    accLater c i arg1 harg1 arg2 harg2 arg3 harg3 hc x s = k0_pay2 x s := by
  unfold accLater
  rw [View.read_writes_eq_canon _ _ _ (coverLaterA c i arg1 harg1 arg2 harg2 arg3 harg3 hc x s)]
  unfold runLater
  dsimp only
  try sl_unfold_words
  rw [View.canon_unit_zero hz2]
  simp only [View.readAt_eq_ld, harg1.read_unread, harg3.read_unread, View.ld_unit_zero (S := S2x128x128x16) hz4, View.ld_unit_zero (S := S128x128) hz2]

theorem outLater_eq (c : Dev nD) (i : grid0.Coords) (arg1 : Memref sig .tc .vmem S2x128x128x16 .f32) (harg1 : arg1.IsWhole) (arg2 : Memref sig .tc .vmem S128x128 .f32) (harg2 : arg2.IsWhole) (arg3 : Memref sig .tc .vmem S128x128 .f32) (harg3 : arg3.IsWhole) (hc : ¬isFirst i) (x : Vec F S2x128x128x16 .f32) (s : Vec F S128x128 .f32) :
    outLater c i arg1 harg1 arg2 harg2 arg3 harg3 hc x s = k0_pay2 x s := by
  unfold outLater
  rw [View.read_writes_eq_canon _ _ _ (coverLaterO c i arg1 harg1 arg2 harg2 arg3 harg3 hc x s)]
  unfold runLater
  dsimp only
  try sl_unfold_words
  rw [View.canon_unit_zero hz2, View.readCov_unit_zero (S := S128x128) _ hz2]
  simp only [View.readAt_eq_ld, harg1.read_unread, harg3.read_unread, View.ld_unit_zero (S := S2x128x128x16) hz4, View.ld_unit_zero (S := S128x128) hz2]

/-! ## The fold -/

variable (V : (c : Dev nD) → (b : Ref sig .tc) → Buf (Elt F) ((c : Thread nD τ).loc b))

/-- After point 0: the zero splat plus block 0's sum. -/
theorem acc_zero (c : Dev nD) (hn : 0 < cfg0.N) :
    (outsAt V c 0 hn).2 = k0_pay2 (iblk V c 0 ⟨0, hn⟩) (k0_pay1 (F := F)) := by
  show accFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩) = _
  exact accFirst_eq c _ _ _ _ _ _ _ _ _

/-- After point n+1: what point n left plus block n+1's sum. -/
theorem acc_succ (c : Dev nD) (n : ℕ) (hn : n + 1 < cfg0.N) :
    (outsAt V c (n + 1) hn).2 = k0_pay2 (iblk V c 0 ⟨n + 1, hn⟩) (outsAt V c n (Nat.lt_of_succ_lt hn)).2 := by
  show accLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt V c n (Nat.lt_of_succ_lt hn)).2 = _
  exact accLater_eq c _ _ _ _ _ _ _ _ _ _

/-- The output's staging buffer after point 0, and after point n+1: the same terms. -/
theorem out_zero (c : Dev nD) (hn : 0 < cfg0.N) :
    (outsAt V c 0 hn).1 = k0_pay2 (iblk V c 0 ⟨0, hn⟩) (k0_pay1 (F := F)) := by
  show outFirst c (grid0.coords ⟨0, hn⟩) (ms0 ⟨0, hn⟩) (hs0 ⟨0, hn⟩) (ms1 ⟨0, hn⟩) (hs1 ⟨0, hn⟩) scM (Memref.isWhole_whole _) (first_zero hn) (iblk V c 0 ⟨0, hn⟩) = _
  exact outFirst_eq c _ _ _ _ _ _ _ _ _

theorem out_succ (c : Dev nD) (n : ℕ) (hn : n + 1 < cfg0.N) :
    (outsAt V c (n + 1) hn).1 = k0_pay2 (iblk V c 0 ⟨n + 1, hn⟩) (outsAt V c n (Nat.lt_of_succ_lt hn)).2 := by
  show outLater c (grid0.coords ⟨n + 1, hn⟩) (ms0 ⟨n + 1, hn⟩) (hs0 ⟨n + 1, hn⟩) (ms1 ⟨n + 1, hn⟩) (hs1 ⟨n + 1, hn⟩) scM (Memref.isWhole_whole _) (later_succ n hn) (iblk V c 0 ⟨n + 1, hn⟩) (outsAt V c n (Nat.lt_of_succ_lt hn)).2 = _
  exact outLater_eq c _ _ _ _ _ _ _ _ _ _

/-- The output's staging buffer holds the accumulator's contents after every point. -/
theorem out_eq_acc (c : Dev nD) (n : ℕ) (hn : n < cfg0.N) : (outsAt V c n hn).1 = (outsAt V c n hn).2 := by
  cases n with
  | zero => exact (out_zero V c hn).trans (acc_zero V c hn).symm
  | succ n => exact (out_succ V c n hn).trans (acc_succ V c n hn).symm

end Cert.KernelIdeal.Acc

end
-- ==== Proof.AccArrayKernelIdeal.lean ====
/-
  The accumulating region's output array: it is written back once, after the last grid point, with the
  whole [128,128] block, so it ends holding the accumulator's last value.
-/
import proofs.«122726_j20615843021260_2_alg».proof.Proof.AccFoldKernelIdeal

set_option maxRecDepth 16384
set_option maxHeartbeats 40000

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The output array after the region -/

-- the accumulation is only ever cited by name here: its 256 nested steps are never opened
attribute [local irreducible] outsAt

/-- The last point. -/
def tLast : Fin cfg0.N := ⟨255, by rw [show cfg0.N = 256 from N_0]; decide⟩

/-- At the last point the output's block sits at offset zero on both axes, -/
theorem last_offsets : (fun a => win0_1.index tLast a * main_v0.ty.shape.size a) = fun _ => 0 :=
  funext fun a => by fin_cases a <;> decide +kernel
/-- and it is written back there. -/
theorem last_flushes : (cfg0.win 1).flush tLast = true := (flush0_1 tLast).mpr rfl

/-- At the last point the output's block is the whole array: whatever the body left in the staging buffer,
    `X`, is what the write-back writes, read through that block. -/
theorem flushed_of (c : Dev nD) (X : Buf (Elt F) ((c : Thread nD τ).loc main_v0)) (hX : (dat V c).after 1 tLast = X) :
    (dat V c).flushed 1 tLast = ((cfg0.win 1).blk tLast).view.read (Elt F) X := by
  show (cfg0.win 1).cut (grid0.coords tLast) ((dat V c).after 1 tLast) = _
  rw [hX]
  exact (Memref.read_access_unit_zero (Elt F) main_v0 last_offsets (fun a => by rw [congrFun last_offsets a]; simp) X).symm

/-- Every index of the output array is in the last point's block. -/
theorem last_covers (c : Dev nD) (i : ((cfg0.win 1).arr.view.loc (c.tc : Thread nD τ)).2.ty.Idx) :
    i ∈ ((cfg0.win 1).blk tLast).view.set := by
  show i ∈ ((View.whole main_v0).slice (win0_1.rect tLast)).set
  rw [View.set_slice_whole, Rect.mem_set_unit]
  intro a
  have h0 : (i 0 : Nat) < 128 := (i 0).isLt
  have h1 : (i 1 : Nat) < 128 := (i 1).isLt
  match a with
  | ⟨0, _⟩ => show win0_1.index tLast 0 * win0_1.size 0 ≤ (i 0 : Nat) ∧ (i 0 : Nat) < win0_1.index tLast 0 * win0_1.size 0 + win0_1.xsize (grid0.coords tLast) 0
              rw [show win0_1.index tLast 0 * win0_1.size 0 = 0 from by decide +kernel, show win0_1.xsize (grid0.coords tLast) 0 = 128 from by decide +kernel]; omega
  | ⟨1, _⟩ => show win0_1.index tLast 1 * win0_1.size 1 ≤ (i 1 : Nat) ∧ (i 1 : Nat) < win0_1.index tLast 1 * win0_1.size 1 + win0_1.xsize (grid0.coords tLast) 1
              rw [show win0_1.index tLast 1 * win0_1.size 1 = 0 from by decide +kernel, show win0_1.xsize (grid0.coords tLast) 1 = 128 from by decide +kernel]; omega

/-- The only point that writes the output back is the last. -/
theorem flush_only_last (t : Fin cfg0.N) (hf : (cfg0.win 1).flush t = true) : t = tLast := by
  have hN : cfg0.N = 256 := N_0
  have h1 : t.val % 256 = 255 := (flush0_1 t).mp hf
  have h2 : t.val < 256 := lt_of_lt_of_eq t.isLt hN
  exact Fin.ext (show t.val = 255 by omega)

/-- What the body leaves in the output's staging buffer at the last point is the accumulator's last value
    (the accumulation's second component at the last point: it is never given a name of its own, so that no
    step ever has to open the 256 nested accumulation steps to compare two spellings of it). -/
theorem after_last (c : Dev nD) : (dat V c).after 1 tLast = (outsAt V c tLast.val tLast.isLt).2 :=
  (after_out V c tLast).trans (out_eq_acc V c tLast.val tLast.isLt)

/-- The one write-back, after the last point, writes the accumulator's last value. -/
theorem flushed_eq (c : Dev nD) (t : Fin cfg0.N) (hf : (cfg0.win 1).flush t = true) :
    (dat V c).flushed 1 t
      = ((cfg0.win 1).blk t).view.read (Elt F) ((outsAt V c tLast.val tLast.isLt).2 : Buf (Elt F) ((c : Thread nD τ).loc main_v0)) := by
  rw [flush_only_last t hf]
  exact flushed_of V c _ (after_last V c)

/-- So the output array ends holding the accumulator's last value. -/
theorem final_xs (c : Dev nD) :
    (dat V c).arrAt 1 cfg0.N = ((outsAt V c tLast.val tLast.isLt).2 : Buf (Elt F) ((c : Thread nD τ).loc main_v0)) :=
  (dat V c).arrAt_eq_of_cover 1 _ (flushed_eq V c) fun i => ⟨tLast, last_flushes, last_covers c i⟩

/-- The accumulation's value depends on the position only through its number. -/
theorem acc_congr (c : Dev nD) (n₁ n₂ : ℕ) (h₁ : n₁ < cfg0.N) (h₂ : n₂ < cfg0.N) (e : n₁ = n₂) :
    (outsAt V c n₁ h₁).2 = (outsAt V c n₂ h₂).2 := by
  subst e; rfl

end Cert.KernelIdeal.Acc

end
-- ==== Proof.AccBlockKernelIdeal.lean ====
/-
  The accumulating region's input blocks: the block at grid point t is rows 2t and 2t+1 of the big
  argument's first axis, all of the other three axes.
-/
import proofs.«122726_j20615843021260_2_alg».proof.Proof.AccDataKernelIdeal
import Idealize.ShloMosaic.Lib.Pipeline.Value
import Idealize.ShloMosaic.Lib.ValueIdx

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (V : (c : Dev nD) → (b : Ref sig .tc) → Buf (Elt F) ((c : Thread nD τ).loc b))

/-! ## The blocks of the big argument -/

/-- Where the input window's block sits: block index t along the first axis, 0 along the others. -/
theorem index_facts : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

/-- The block at point t, at (b, h, w, c), is the argument at (2t + b, h, w, c). -/
theorem iblk_apply (c : Dev nD) (t : Fin cfg0.N) (b : Fin 2) (h w : Fin 128) (cc : Fin 16) (hb : 2 * t.val + b.val < 512) :
    (iblk V c 0 t : Vec F S2x128x128x16 .f32) (ix4 b h w cc)
      = (V c main_arg0 : S512x128x128x16.Idx → Elt F .f32) (ix4 ⟨2 * t.val + b.val, hb⟩ h w cc) := by
  obtain ⟨i0, i1, i2, i3⟩ := index_facts t
  unfold iblk
  rw [View.read_apply]
  show V c main_arg0 _ = V c main_arg0 _
  refine congrArg (V c main_arg0) ?_
  funext a
  apply Fin.ext
  match a with
  | ⟨0, _⟩ => show win0_0.index t 0 * 2 + 1 * b.val = 2 * t.val + b.val; rw [i0]; omega
  | ⟨1, _⟩ => show win0_0.index t 1 * 128 + 1 * h.val = h.val; rw [i1]; omega
  | ⟨2, _⟩ => show win0_0.index t 2 * 128 + 1 * w.val = w.val; rw [i2]; omega
  | ⟨3, _⟩ => show win0_0.index t 3 * 16 + 1 * cc.val = cc.val; rw [i3]; omega

end Cert.KernelIdeal.Acc

end
-- ==== Proof.PadValKernelIdeal.lean ====
/-
  What the matrix-product region computes: its two input blocks are the whole arrays it reads, its one
  store is the body's double product of them, and the one write-back (the output's block is the whole
  [130,130] array) leaves exactly that in the output array.
-/
import proofs.«122726_j20615843021260_2_alg».proof.Proof.PadDataKernelIdeal
import Idealize.ShloMosaic.Lib.Pipeline.Value

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- The stored piece read back is the body's arithmetic of what it loaded. -/
theorem padOut_eq (p : Vec F S130x128 .f32) (xs : Vec F S128x128 .f32) : padOut p xs = k1_pay1 p xs := by
  unfold padOut
  rw [View.canon_unit_zero hz2]
  simp only [View.ld_unit_zero (S := S130x128) hz2, View.ld_unit_zero (S := S128x128) hz2]

variable (V : (c : Dev nD) → (b : Ref sig .tc) → Buf (Elt F) ((c : Thread nD τ).loc b))

/-- The first input's block is the whole [130,128] argument. -/
theorem iblk_p (c : Dev nD) (t : Fin cfg1.N) : iblk V c 0 t = V c main_arg1 := by
  obtain rfl := fin_N1 t
  have hz' : (fun a => win1_0.index t1_0 a * main_arg1.ty.shape.size a) = fun _ => 0 := funext fun a => by fin_cases a <;> decide +kernel
  exact Memref.read_access_unit_zero (Elt F) main_arg1 hz' (fun a => by rw [congrFun hz' a]; simp) (V c main_arg1)

/-- The second input's block is the whole [128,128] array the first region wrote. -/
theorem iblk_xs (c : Dev nD) (t : Fin cfg1.N) : iblk V c 1 t = V c main_v0 := by
  obtain rfl := fin_N1 t
  have hz' : (fun a => win1_1.index t1_0 a * main_v0.ty.shape.size a) = fun _ => 0 := funext fun a => by fin_cases a <;> decide +kernel
  exact Memref.read_access_unit_zero (Elt F) main_v0 hz' (fun a => by rw [congrFun hz' a]; simp) (V c main_v0)

/-- The region's result: the body's double product of the two arrays as the region finds them. -/
abbrev result (c : Dev nD) : Buf (Elt F) ((c : Thread nD τ).loc main_v1) :=
  k1_pay1 (F := F) (V c main_arg1) (V c main_v0)

theorem flushed_eq (c : Dev nD) (t : Fin cfg1.N) (hf : (cfg1.win 2).flush t = true) :
    (dat V c).flushed 2 t = ((cfg1.win 2).blk t).view.read (Elt F) (result V c) := by
  obtain rfl := fin_N1 t
  show (cfg1.win 2).cut (grid1.coords t1_0) ((dat V c).after 2 t1_0) = _
  rw [after_out, padOut_eq, iblk_p, iblk_xs]
  have hz' : (fun a => win1_2.index t1_0 a * main_v1.ty.shape.size a) = fun _ => 0 := funext fun a => by fin_cases a <;> decide +kernel
  exact (Memref.read_access_unit_zero (Elt F) main_v1 hz' (fun a => by rw [congrFun hz' a]; simp) (result V c)).symm

/-- So the output array ends holding the result. -/
theorem final_out (c : Dev nD) : (dat V c).arrAt 2 cfg1.N = result V c :=
  (dat V c).arrAt_eq_of_cover 2 (result V c) (flushed_eq V c) fun i =>
    ⟨t1_0, flush1_2 t1_0, by
      show i ∈ ((View.whole main_v1).slice (win1_2.rect t1_0)).set
      rw [View.set_slice_whole, Rect.mem_set_unit]
      intro a
      have h0 : (i 0 : Nat) < 130 := (i 0).isLt
      have h1 : (i 1 : Nat) < 130 := (i 1).isLt
      match a with
      | ⟨0, _⟩ => show win1_2.index t1_0 0 * win1_2.size 0 ≤ (i 0 : Nat) ∧ (i 0 : Nat) < win1_2.index t1_0 0 * win1_2.size 0 + win1_2.xsize (grid1.coords t1_0) 0
                  rw [show win1_2.index t1_0 0 * win1_2.size 0 = 0 from by decide +kernel, show win1_2.xsize (grid1.coords t1_0) 0 = 130 from by decide +kernel]; omega
      | ⟨1, _⟩ => show win1_2.index t1_0 1 * win1_2.size 1 ≤ (i 1 : Nat) ∧ (i 1 : Nat) < win1_2.index t1_0 1 * win1_2.size 1 + win1_2.xsize (grid1.coords t1_0) 1
                  rw [show win1_2.index t1_0 1 * win1_2.size 1 = 0 from by decide +kernel, show win1_2.xsize (grid1.coords t1_0) 1 = 130 from by decide +kernel]; omega⟩

end Cert.KernelIdeal.Pad

end
-- ==== Proof.FoldSum.lean ====
import proofs.«122726_j20615843021260_2_alg».proof.Proof.Gen.KernelIdeal.Skeleton
import proofs.«122726_j20615843021260_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.FoldSum

open Idealize.ShloMosaic Idealize.ShloMosaic.ValueIdx

attribute [local instance] Cert.KernelIdeal.Gen.facts Cert.ReferenceIdeal.Gen.facts

/-! ## Reductions and unit-axis reshapes of rank-4 and rank-3 arrays read at coordinates -/

variable {α : Type}

/-- The sum of a rank-4 array of extended reals over its LAST axis, read at `(a, b, c)`: `∑ k, src (a, b, c, k)`. -/
theorem sumLast4_apply {A B C D : ℕ} (src : FVec Ideal ⟨4, ![A, B, C, D]⟩ .f32) (acc : BitVec 32)
    (h : (⟨4, ![A, B, C, D]⟩ : Shape).Reduces [3] ⟨3, ![A, B, C]⟩) (hφ : FKind.Formats FTy.f32)
    (hacc : acc = FKind.add.neutral FTy.f32 hφ) (a : Fin A) (b : Fin B) (c : Fin C) :
    multiReduction .add [3] ⟨3, ![A, B, C]⟩ src acc h hφ hacc (ix3 a b c) = ∑ k : Fin D, src (ix4 a b c k) := by
  refine (Ideal.multiReduction_add_single src acc h hφ hacc (ix3 a b c)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

/-- The sum of a rank-4 array of extended reals over its FIRST axis, read at `(b, c, d)`: `∑ k, src (k, b, c, d)`. -/
theorem sumFirst4_apply {A B C D : ℕ} (src : FVec Ideal ⟨4, ![A, B, C, D]⟩ .f32) (acc : BitVec 32)
    (h : (⟨4, ![A, B, C, D]⟩ : Shape).Reduces [0] ⟨3, ![B, C, D]⟩) (hφ : FKind.Formats FTy.f32)
    (hacc : acc = FKind.add.neutral FTy.f32 hφ) (b : Fin B) (c : Fin C) (d : Fin D) :
    multiReduction .add [0] ⟨3, ![B, C, D]⟩ src acc h hφ hacc (ix3 b c d) = ∑ k : Fin A, src (ix4 k b c d) := by
  refine (Ideal.multiReduction_add_single src acc h hφ hacc (ix3 b c d)).trans ?_
  refine Finset.sum_congr rfl fun k _ => ?_
  exact congrArg src (funext fun ax => Fin.ext (by
    match ax with | ⟨0, _⟩ => rfl | ⟨1, _⟩ => rfl | ⟨2, _⟩ => rfl | ⟨3, _⟩ => rfl))

/-- `[A, B, C]` given a unit last axis, `[A, B, C, 1]`: entry `(a, b, c, u)` reads `(a, b, c)`. -/
theorem addUnitLast_apply {A B C : ℕ} (x : (⟨3, ![A, B, C]⟩ : Shape).Idx → α)
    (h : (⟨3, ![A, B, C]⟩ : Shape).ShapeCasts ⟨4, ![A, B, C, 1]⟩) (a : Fin A) (b : Fin B) (c : Fin C) (u : Fin 1) :
    shapeCast ⟨4, ![A, B, C, 1]⟩ x h (ix4 a b c u) = x (ix3 a b c) :=
  shapeCast_apply x h _ _ (by
    have hu : u.val = 0 := by omega
    rw [Shape.rowMajor_val_three, Shape.rowMajor_val_four]
    show (a.val * B + b.val) * C + c.val = ((a.val * B + b.val) * C + c.val) * 1 + u.val
    rw [hu, Nat.mul_one, Nat.add_zero])

/-- `[A, B, 1]` with its unit last axis dropped, `[A, B]`: entry `(a, b)` reads `(a, b, 0)`. -/
theorem dropUnitLast_apply {A B : ℕ} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b (0 : Fin 1)) :=
  shapeCast_apply x h _ _ (by
    rw [Shape.rowMajor_val_three, Shape.rowMajor_val_two]
    show (a.val * B + b.val) * 1 + 0 = a.val * B + b.val
    rw [Nat.mul_one, Nat.add_zero])

/-! ## The host's sum over the first and last axes of a rank-4 array -/

/-- Dropping the first and last coordinates of `(a, b, c, d)` leaves `(b, c)`. -/
theorem drop_outer_ix4 {A B C D : ℕ} (h : (⟨4, ![A, B, C, D]⟩ : Shape).ReducesTo [0, 3] ⟨2, ![B, C]⟩)
    (a : Fin A) (b : Fin B) (c : Fin C) (d : Fin D) : h.drop (ix4 a b c d) = ix2 b c := by
  funext ax
  match ax with
  | ⟨0, _⟩ => exact Fin.ext rfl
  | ⟨1, _⟩ => exact Fin.ext rfl

/-- The indices of an `[A, B, C, D]` array whose two middle coordinates are `(b, c)`, summed, are the double sum over
    the first and last coordinates. -/
theorem sum_filter_drop_outer4 {M : Type*} [AddCommMonoid M] {A B C D : ℕ}
    (h : (⟨4, ![A, B, C, D]⟩ : Shape).ReducesTo [0, 3] ⟨2, ![B, C]⟩) (x : (⟨4, ![A, B, C, D]⟩ : Shape).Idx → M)
    (b : Fin B) (c : Fin C) :
    ∑ i ∈ Finset.univ.filter (fun i => h.drop i = ix2 b c), x i = ∑ a : Fin A, ∑ d : Fin D, x (ix4 a b c d) := by
  rw [← Finset.sum_product' Finset.univ Finset.univ (fun a d => x (ix4 a b c d))]
  refine Finset.sum_nbij' (fun i => ((i 0 : Fin A), (i 3 : Fin D))) (fun p => ix4 p.1 b c p.2) ?_ ?_ ?_ ?_ ?_
  · intro i _; exact Finset.mem_product.2 ⟨Finset.mem_univ _, Finset.mem_univ _⟩
  · intro p _; exact Finset.mem_filter.2 ⟨Finset.mem_univ _, drop_outer_ix4 h p.1 b c p.2⟩
  · intro i hi
    have hj := (Finset.mem_filter.1 hi).2
    obtain ⟨a, b', c', d, rfl⟩ : ∃ (a : Fin A) (b' : Fin B) (c' : Fin C) (d : Fin D), i = ix4 a b' c' d :=
      ⟨i 0, i 1, i 2, i 3, eq_ix4 i⟩
    rw [drop_outer_ix4] at hj
    have hb : b' = b := congrFun hj 0
    have hc : c' = c := congrFun hj 1
    subst hb; subst hc; rfl
  · intro p _; rfl
  · intro i hi
    have hj := (Finset.mem_filter.1 hi).2
    obtain ⟨a, b', c', d, rfl⟩ : ∃ (a : Fin A) (b' : Fin B) (c' : Fin C) (d : Fin D), i = ix4 a b' c' d :=
      ⟨i 0, i 1, i 2, i 3, eq_ix4 i⟩
    rw [drop_outer_ix4] at hj
    have hb : b' = b := congrFun hj 0
    have hc : c' = c := congrFun hj 1
    subst hb; subst hc; rfl

/-- The host's sum over the first and last axes of an `[A, B, C, D]` array, read at `(b, c)`: the initial value plus
    the double sum. -/
theorem hostReduceAdd_outer4_apply {A B C D : ℕ} (h : (⟨4, ![A, B, C, D]⟩ : Shape).ReducesTo [0, 3] ⟨2, ![B, C]⟩)
    (x : (⟨4, ![A, B, C, D]⟩ : Shape).Idx → EReal) (init : EReal) (b : Fin B) (c : Fin C) :
    Ideal.hostReduceAdd h x init (ix2 b c) = init + ∑ a : Fin A, ∑ d : Fin D, x (ix4 a b c d) := by
  unfold Ideal.hostReduceAdd
  rw [sum_filter_drop_outer4]

/-! ## The kernel's two payloads read at `(h, w)` -/

open Cert.KernelIdeal Cert.KernelIdeal.Gen in
/-- The zero splat reads `0` everywhere. -/
theorem pay1_apply (h w : Fin 128) : k0_pay1 (F := Ideal) (ix2 h w) = 0 := by
  unfold k0_pay1
  rw [shapeCast_self]
  exact Ideal.ofBits_zero_f32

open Cert.KernelIdeal Cert.KernelIdeal.Gen in
/-- The accumulating payload reads the accumulator plus the block's sum over its first and last axes. -/
theorem pay2_apply (v3 : Vec Ideal S2x128x128x16 .f32) (v8 : Vec Ideal S128x128 .f32) (h w : Fin 128) :
    k0_pay2 (F := Ideal) v3 v8 (ix2 h w) = v8 (ix2 h w) + ∑ b : Fin 2, ∑ c : Fin 16, v3 (ix4 b h w c) := by
  unfold k0_pay2
  rw [shapeCast_self]
  refine congrArg (v8 (ix2 h w) + ·) ?_
  refine (dropUnitLast_apply _ _ h w).trans ?_
  refine (sumFirst4_apply _ _ _ _ _ h w (0 : Fin 1)).trans ?_
  refine Finset.sum_congr rfl fun b _ => ?_
  refine (addUnitLast_apply _ _ b h w (0 : Fin 1)).trans ?_
  exact sumLast4_apply _ _ _ _ _ b h w

/-! ## The fold over the 256 blocks, and the two sides joined -/

/-- The array's row sum `∑ c, x (b, h, w, c)` at a natural first coordinate `b`, and `0` past the last slab. -/
def slab (x : FVec Ideal Cert.ReferenceIdeal.S512x128x128x16 .f32) (h w : Fin 128) (b : ℕ) : EReal :=
  if hb : b < 512 then ∑ c : Fin 16, x (ix4 (⟨b, hb⟩ : Fin 512) h w c) else 0

/-- A block's row sum is the array's at the block's slab. -/
theorem blk_slab (x : FVec Ideal Cert.ReferenceIdeal.S512x128x128x16 .f32)
    (blk : Fin 256 → Vec Ideal Cert.KernelIdeal.S2x128x128x16 .f32)
    (hblk : ∀ (n : Fin 256) (b : Fin 2) (h w : Fin 128) (c : Fin 16),
        blk n (ValueIdx.ix4 b h w c) = x (ValueIdx.ix4 ⟨2 * n.val + b.val, by omega⟩ h w c))
    (h w : Fin 128) (n : Fin 256) (b : Fin 2) :
    ∑ c : Fin 16, blk n (ix4 b h w c) = slab x h w (2 * n.val + b.val) := by
  unfold slab
  rw [dif_pos (by omega)]
  exact Finset.sum_congr rfl fun c _ => hblk n b h w c

/-- After block `k` the accumulator at `(h, w)` is the sum of the first `2 (k + 1)` slabs' row sums. -/
theorem acc_apply (x : FVec Ideal Cert.ReferenceIdeal.S512x128x128x16 .f32)
    (blk : Fin 256 → Vec Ideal Cert.KernelIdeal.S2x128x128x16 .f32)
    (hblk : ∀ (n : Fin 256) (b : Fin 2) (h w : Fin 128) (c : Fin 16),
        blk n (ValueIdx.ix4 b h w c) = x (ValueIdx.ix4 ⟨2 * n.val + b.val, by omega⟩ h w c))
    (acc : Fin 256 → Vec Ideal Cert.KernelIdeal.S128x128 .f32)
    (h0 : acc 0 = Cert.KernelIdeal.Gen.k0_pay2 (F := Ideal) (blk 0) (Cert.KernelIdeal.Gen.k0_pay1 (F := Ideal)))
    (hs : ∀ (n : Fin 256) (hn : n.val + 1 < 256), acc ⟨n.val + 1, hn⟩ = Cert.KernelIdeal.Gen.k0_pay2 (F := Ideal) (blk ⟨n.val + 1, hn⟩) (acc n))
    (h w : Fin 128) :
    ∀ (k : ℕ) (hk : k < 256), acc ⟨k, hk⟩ (ix2 h w) = ∑ b ∈ Finset.range (2 * (k + 1)), slab x h w b := by
  intro k
  induction k with
  | zero =>
    intro hk
    have e0 : ∑ c : Fin 16, blk 0 (ix4 (0 : Fin 2) h w c) = slab x h w 0 := blk_slab x blk hblk h w 0 0
    have e1 : ∑ c : Fin 16, blk 0 (ix4 (1 : Fin 2) h w c) = slab x h w 1 := blk_slab x blk hblk h w 0 1
    show acc 0 (ix2 h w) = ∑ b ∈ Finset.range 2, slab x h w b
    rw [h0, pay2_apply, pay1_apply, zero_add, Fin.sum_univ_two, e0, e1, Finset.sum_range_succ, Finset.sum_range_one]
  | succ k ih =>
    intro hk
    have hk' : k < 256 := by omega
    have e0 : ∑ c : Fin 16, blk ⟨k + 1, hk⟩ (ix4 (0 : Fin 2) h w c) = slab x h w (2 * (k + 1)) :=
      blk_slab x blk hblk h w ⟨k + 1, hk⟩ 0
    have e1 : ∑ c : Fin 16, blk ⟨k + 1, hk⟩ (ix4 (1 : Fin 2) h w c) = slab x h w (2 * (k + 1) + 1) :=
      blk_slab x blk hblk h w ⟨k + 1, hk⟩ 1
    have e : 2 * (k + 1 + 1) = 2 * (k + 1) + 1 + 1 := by omega
    rw [hs ⟨k, hk'⟩ hk, pay2_apply, ih hk', Fin.sum_univ_two, e0, e1, e, Finset.sum_range_succ, Finset.sum_range_succ,
      add_assoc]

/-- The fold of the 256 blocks' two-axis sums from the zero splat is the host's one reduction over axes `[0, 3]`:
    both are, at `(h, w)`, the sum over the 512 slabs of the slab's row sum. -/
theorem fold_eq_reduceAdd
    (x : FVec Ideal Cert.ReferenceIdeal.S512x128x128x16 .f32)
    (blk : Fin 256 → Vec Ideal Cert.KernelIdeal.S2x128x128x16 .f32)
    (hblk : ∀ (n : Fin 256) (b : Fin 2) (h w : Fin 128) (c : Fin 16),
        blk n (ValueIdx.ix4 b h w c) = x (ValueIdx.ix4 ⟨2 * n.val + b.val, by omega⟩ h w c))
    (acc : Fin 256 → Vec Ideal Cert.KernelIdeal.S128x128 .f32)
    (h0 : acc 0 = Cert.KernelIdeal.Gen.k0_pay2 (F := Ideal) (blk 0) (Cert.KernelIdeal.Gen.k0_pay1 (F := Ideal)))
    (hs : ∀ (n : Fin 256) (hn : n.val + 1 < 256), acc ⟨n.val + 1, hn⟩ = Cert.KernelIdeal.Gen.k0_pay2 (F := Ideal) (blk ⟨n.val + 1, hn⟩) (acc n)) :
    acc ⟨255, by decide⟩ = Host.reduceAdd (F := Ideal) x (constant (F := Ideal) Cert.ReferenceIdeal.S_ .f32 0x00000000#32)
        Cert.ReferenceIdeal.Facts₀.reducesTo_S512x128x128x16_S128x128_d0_3 Cert.ReferenceIdeal.Facts₀.h_S_ := by
  funext j
  obtain ⟨h, w, rfl⟩ : ∃ h w : Fin 128, j = ix2 h w := ⟨j 0, j 1, eq_ix2 j⟩
  refine (acc_apply x blk hblk acc h0 hs h w 255 (by decide)).trans ?_
  refine Eq.symm ((hostReduceAdd_apply x _ _ _ (ix2 h w)).trans ?_)
  refine (hostReduceAdd_outer4_apply _ x _ h w).trans ?_
  show Ideal.ofBits .f32 0x00000000#32 + _ = ∑ b ∈ Finset.range 512, slab x h w b
  rw [Ideal.ofBits_zero_f32, zero_add, ← Fin.sum_univ_eq_sum_range (fun b => slab x h w b) 512]
  refine Finset.sum_congr rfl fun a _ => ?_
  show _ = slab x h w a.val
  unfold slab
  rw [dif_pos a.isLt]

end Cert.FoldSum

end
-- ==== Proof.FoldSum2.lean ====
import proofs.«122726_j20615843021260_2_alg».proof.Proof.Gen.KernelIdeal.Skeleton
import proofs.«122726_j20615843021260_2_alg».proof.Proof.Gen.ReferenceIdeal
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.FoldSum2

open Idealize.ShloMosaic Idealize.ShloMosaic.ValueIdx

attribute [local instance] Cert.KernelIdeal.Gen.facts Cert.ReferenceIdeal.Gen.facts

/-! ## The second kernel: two matrix products into zero accumulators are the host's two `dot_general`s -/

/-- On the extended reals a matrix product accumulated into the zero matrix is the host's `dot_general` with the same
    dimension numbers, whatever precision either names: entry by entry both are the sum over the contraction index of
    the operands' products. -/
theorem matmul_zero_eq_dotGeneral {sl sr so : Shape} {φ₁ φ₂ : FTy} (d d' : DotDims sl sr so) (hd : d = d')
    (prec prec' : Option ContractPrecision) (a : FVec Ideal sl φ₁) (b : FVec Ideal sr φ₂) :
    matmul d prec a b (constant so .f32 0x00000000#32) = Host.dotGeneral d' prec' a b := by
  subst hd
  funext j
  simp only [matmul, Host.dotGeneral]
  rw [Ideal.matmul_constant_zero_apply, Ideal.dotGeneral_apply]

open Cert.KernelIdeal Cert.KernelIdeal.Gen in
/-- The second kernel's payload is the reference's `(p · xs) · pᵀ`. -/
theorem pay_eq_dotGeneral (p : FVec Ideal Cert.KernelIdeal.S130x128 .f32) (xs : FVec Ideal Cert.KernelIdeal.S128x128 .f32) :
    Cert.KernelIdeal.Gen.k1_pay1 (F := Ideal) p xs
      = Host.dotGeneral (F := Ideal) Cert.ReferenceIdeal.dot_S130x128_S128x130_S130x130_1_0_0_1_n_n none
          (Host.dotGeneral (F := Ideal) Cert.ReferenceIdeal.dot_S130x128_S128x128_S130x128_1_0_0_1_n_n none p xs)
          (transpose Cert.ReferenceIdeal.S128x130 [1, 0] p Cert.ReferenceIdeal.Facts₀.transposes_S130x128_S128x130_1_0) := by
  unfold k1_pay1
  rw [shapeCast_self]
  refine (matmul_zero_eq_dotGeneral _ Cert.ReferenceIdeal.dot_S130x128_S128x130_S130x130_1_0_0_1_n_n rfl _ none _ _).trans ?_
  refine congrArg (fun l => Host.dotGeneral (F := Ideal) Cert.ReferenceIdeal.dot_S130x128_S128x130_S130x130_1_0_0_1_n_n none l
    (transpose Cert.ReferenceIdeal.S128x130 [1, 0] p Cert.ReferenceIdeal.Facts₀.transposes_S130x128_S128x130_1_0)) ?_
  exact matmul_zero_eq_dotGeneral _ Cert.ReferenceIdeal.dot_S130x128_S128x128_S130x128_1_0_0_1_n_n rfl _ none p xs

end Cert.FoldSum2

end
-- ==== Proof.ResultIdeal.lean ====
/-
  The idealized kernel's result, as the reference spells it.

  The host's last line broadcasts the second region's output; that output is the body's double product
  (p · xs) · pᵀ of the [130,128] argument p and the first region's output xs; xs is the accumulator's last
  value, the fold over the 256 blocks of the big argument — which on the extended reals is the host's one
  sum over the first and last axes (a regrouping of a finite sum: + is commutative and associative and the
  zero word is its identity, so no finiteness is used) — and a matrix product into a zero accumulator is
  the host's contraction. So the result is, term for term, what the reference computes from the same
  arguments.
-/
import proofs.«122726_j20615843021260_2_alg».proof.Proof.FrameKernelIdeal
import proofs.«122726_j20615843021260_2_alg».proof.Proof.AccArrayKernelIdeal
import proofs.«122726_j20615843021260_2_alg».proof.Proof.AccBlockKernelIdeal
import proofs.«122726_j20615843021260_2_alg».proof.Proof.PadValKernelIdeal
import proofs.«122726_j20615843021260_2_alg».proof.Proof.FoldSum
import proofs.«122726_j20615843021260_2_alg».proof.Proof.FoldSum2
import Idealize.ShloMosaic.Lib.StableHlo.Run

set_option maxRecDepth 16384
set_option maxHeartbeats 40000

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the accumulation is cited by its two step equations only; its nested steps are never opened
attribute [local irreducible] Acc.outsAt

/-- The reference's term of the two arguments: the broadcast of (p · Σ x) · pᵀ. -/
def spec (x : FVec Ideal Cert.ReferenceIdeal.S512x128x128x16 .f32) (p : FVec Ideal Cert.ReferenceIdeal.S130x128 .f32) :
    FVec Ideal Cert.ReferenceIdeal.S1x130x130x1 .f32 :=
  broadcastInDim Cert.ReferenceIdeal.S1x130x130x1 ![1, 2] Cert.ReferenceIdeal.Facts₀.bcast_S130x130_S1x130x130x1_1_2
    (Host.dotGeneral (F := Ideal) Cert.ReferenceIdeal.dot_S130x128_S128x130_S130x130_1_0_0_1_n_n none
      (Host.dotGeneral (F := Ideal) Cert.ReferenceIdeal.dot_S130x128_S128x128_S130x128_1_0_0_1_n_n none p
        (Host.reduceAdd (F := Ideal) x (constant (F := Ideal) Cert.ReferenceIdeal.S_ .f32 0x00000000#32)
          Cert.ReferenceIdeal.Facts₀.reducesTo_S512x128x128x16_S128x128_d0_3 Cert.ReferenceIdeal.Facts₀.h_S_))
      (transpose Cert.ReferenceIdeal.S128x130 [1, 0] p Cert.ReferenceIdeal.Facts₀.transposes_S130x128_S128x130_1_0))

theorem lt_N (n : Fin 256) : n.val < cfg0.N := lt_of_lt_of_eq n.isLt (N_0).symm

/-- The accumulator's last value is the host's sum of the big argument over its first and last axes: the
    accumulation, read as a family over the 256 points, satisfies the fold's two step equations. -/
theorem total_eq (c : Dev nD) :
    (Acc.outsAt (V0 m) c Acc.tLast.val Acc.tLast.isLt).2
      = Host.reduceAdd (F := Ideal) (m ((c : Thread nD τ).loc main_arg0)) (constant (F := Ideal) Cert.ReferenceIdeal.S_ .f32 0x00000000#32)
          Cert.ReferenceIdeal.Facts₀.reducesTo_S512x128x128x16_S128x128_d0_3 Cert.ReferenceIdeal.Facts₀.h_S_ := by
  obtain ⟨acc, hacc⟩ : ∃ acc : Fin 256 → Vec Ideal S128x128 .f32, ∀ n, acc n = (Acc.outsAt (V0 m) c n.val (lt_N n)).2 :=
    ⟨_, fun _ => rfl⟩
  have h := Cert.FoldSum.fold_eq_reduceAdd (m ((c : Thread nD τ).loc main_arg0))
    (fun n => Acc.iblk (V0 m) c 0 ⟨n.val, lt_N n⟩)
    (fun n b h w cc => Acc.iblk_apply (V0 m) c ⟨n.val, lt_N n⟩ b h w cc (by show 2 * n.val + b.val < 512; have := n.isLt; have := b.isLt; omega))
    acc
    (by rw [hacc]; exact Acc.acc_zero (V0 m) c (lt_N 0))
    (fun n hn => by rw [hacc, hacc]; exact Acc.acc_succ (V0 m) c n.val (lt_N ⟨n.val + 1, hn⟩))
  rw [← h, hacc]
  exact Acc.acc_congr (V0 m) c _ _ _ _ rfl

/-- The host's last line: the result is the broadcast of the second region's output. -/
theorem W3_main_v2 (c : Dev nD) :
    W3 m c (Proc.devRef .tc main_v2)
      = broadcastInDim S1x130x130x1 ![1, 2] Facts₀.bcast_S130x130_S1x130x130x1_1_2 (W2 m c (Proc.devRef .tc main_v1)) := by
  show StableHlo.after hostOps2 (W2 m c) (Proc.devRef .tc main_v2) = _
  after_results

/-- THE KERNEL'S VALUE. -/
theorem kernel_value (c : Dev nD) :
    W3 m c (Proc.devRef .tc main_v2) = spec (m ((c : Thread nD τ).loc main_arg0)) (m ((c : Thread nD τ).loc main_arg1)) := by
  have hout : W2 m c (Proc.devRef .tc main_v1) = Pad.result (V1 m) c := (W2_arr m c 2).trans (Pad.final_out (V1 m) c)
  have hp : V1 m c main_arg1 = m ((c : Thread nD τ).loc main_arg1) := W1_of_ne m c main_arg1 (by decide)
  have hx : V1 m c main_v0 = (Acc.outsAt (V0 m) c Acc.tLast.val Acc.tLast.isLt).2 := (W1_arr m c 1).trans (Acc.final_xs (V0 m) c)
  rw [W3_main_v2, hout]
  show broadcastInDim _ _ _ (k1_pay1 (F := Ideal) (V1 m c main_arg1) (V1 m c main_v0)) = _
  rw [hp, hx, total_eq, Cert.FoldSum2.pay_eq_dotGeneral]
  rfl

/-- THE RUN, READ: the result at the reference's term of the launch arguments, the arguments unchanged. -/
theorem run_value : θ_run defs (onTc (τ := τ) (main (F := Ideal))) ⟨m, fun _ => 0, ρ⟩ (fun r => ∀ c : Dev nD,
      r.2.mem ((c.tc : Thread nD τ).loc main_v2) = spec (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v2 (by decide))).trans (kernel_value m c),
     (h c _ (mem_uc main_arg0 (by decide))).trans (W3_main_arg0 m c),
     (h c _ (mem_uc main_arg1 (by decide))).trans (W3_main_arg1 m c)⟩) (run_all m ρ)

end Cert.KernelIdeal.Whole

end
-- ==== Proof.lean ====
/-
  The certificate's five claims.

  The kernel sums a [512,128,128,16] array over its first and last axes by accumulating, over 256 grid
  points, the two-axis sums of blocks of two rows into a zeroed [128,128] accumulator, then forms
  (p · xs) · pᵀ with the [130,128] matrix p in a second kernel, and broadcasts the [130,130] result on the
  host. The reference does the sum as one host reduction and the two products as host contractions.
  Frames: each program runs to its end, faults nowhere, and leaves its two arguments as launched — for the
  kernel (word level and idealized) from the run of its three items with every unscoped buffer named at
  each boundary, for the reference from its run. The idealization rewrote nothing, so there is nothing to
  preserve. On the extended reals the two results are one term of the arguments: the fold is a regrouping
  of the reference's finite sum, and a matrix product into a zero accumulator is the host's contraction.
-/
import proofs.«122726_j20615843021260_2_alg».proof.Defs
import proofs.«122726_j20615843021260_2_alg».proof.Proof.Gen.Kernel
import proofs.«122726_j20615843021260_2_alg».proof.Proof.Gen.Kernel.Skeleton
import proofs.«122726_j20615843021260_2_alg».proof.Proof.Gen.Kernel.Launch
import proofs.«122726_j20615843021260_2_alg».proof.Proof.Gen.Kernel.Regions
import proofs.«122726_j20615843021260_2_alg».proof.Proof.Gen.Kernel.Points
import proofs.«122726_j20615843021260_2_alg».proof.Proof.Gen.KernelIdeal
import proofs.«122726_j20615843021260_2_alg».proof.Proof.Gen.KernelIdeal.Skeleton
import proofs.«122726_j20615843021260_2_alg».proof.Proof.Gen.KernelIdeal.Launch
import proofs.«122726_j20615843021260_2_alg».proof.Proof.Gen.KernelIdeal.Regions
import proofs.«122726_j20615843021260_2_alg».proof.Proof.Gen.KernelIdeal.Points
import proofs.«122726_j20615843021260_2_alg».proof.Proof.Gen.ReferenceIdeal
import proofs.«122726_j20615843021260_2_alg».proof.Proof.Gen.ReferenceIdeal.Run
import proofs.«122726_j20615843021260_2_alg».proof.Proof.Gen.Pre_finite_inputs
import proofs.«122726_j20615843021260_2_alg».proof.Proof.FrameKernel
import proofs.«122726_j20615843021260_2_alg».proof.Proof.ResultIdeal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Whole.frame (F := Bits) m ρ
theorem frame_ki : Cert.frame_KernelIdeal := fun m ρ _ => Cert.KernelIdeal.Whole.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both programs end with their result at one term of the (agreeing) arguments. -/
theorem algebraic : Cert.algebraic_KernelIdeal_ReferenceIdeal := by
  intro m ρ m' ρ' _ hagree
  refine ⟨fun c => Cert.KernelIdeal.Whole.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
